-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S10000x64 : Shape := ⟨2, ![10000, 64]⟩
abbrev S1x64 : Shape := ⟨2, ![1, 64]⟩
abbrev S400x10000 : Shape := ⟨2, ![400, 10000]⟩
abbrev S400x64 : Shape := ⟨2, ![400, 64]⟩
abbrev S10000x1 : Shape := ⟨2, ![10000, 1]⟩
abbrev S1000x10000 : Shape := ⟨2, ![1000, 10000]⟩
abbrev S1000x1 : Shape := ⟨2, ![1000, 1]⟩
abbrev S1000x64 : Shape := ⟨2, ![1000, 64]⟩
abbrev S1000 : Shape := ⟨1, ![1000]⟩
abbrev S1x1 : Shape := ⟨2, ![1, 1]⟩

abbrev nBuf : Space → Nat
  | .hbm => 17
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S10000x64, .f32⟩
  | .hbm, ⟨9, _⟩ => ⟨S1x64, .f32⟩
  | .hbm, ⟨10, _⟩ => ⟨S10000x64, .f32⟩
  | .hbm, ⟨11, _⟩ => ⟨S10000x10000, .bf16⟩
  | .hbm, ⟨12, _⟩ => ⟨S1x64, .f32⟩
  | .hbm, ⟨13, _⟩ => ⟨S1x64, .f32⟩
  | .hbm, ⟨14, _⟩ => ⟨S10000x1, .f32⟩
  | .hbm, ⟨15, _⟩ => ⟨S1x1, .f32⟩
  | .hbm, ⟨16, _⟩ => ⟨S10000x1, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S400x10000, .f32⟩
  | .local _ .vmem, ⟨4, _⟩ => ⟨S400x10000, .f32⟩
  | .local _ .vmem, ⟨5, _⟩ => ⟨S10000x64, .f32⟩
  | .local _ .vmem, ⟨6, _⟩ => ⟨S1x64, .f32⟩
  | .local _ .vmem, ⟨7, _⟩ => ⟨S64x64, .f32⟩
  | .local _ .vmem, ⟨8, _⟩ => ⟨S400x64, .f32⟩
  | .local _ .vmem, ⟨9, _⟩ => ⟨S400x64, .f32⟩
  | .local _ .vmem, ⟨10, _⟩ => ⟨S400x10000, .bf16⟩
  | .local _ .vmem, ⟨11, _⟩ => ⟨S400x10000, .bf16⟩
  | .local _ .vmem, ⟨12, _⟩ => ⟨S1000x10000, .bf16⟩
  | .local _ .vmem, ⟨13, _⟩ => ⟨S1000x10000, .bf16⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1000x1, .f32⟩
  | .local _ .vmem, ⟨18, _⟩ => ⟨S1000x1, .f32⟩
  | .local _ .vmem, ⟨19, _⟩ => ⟨S1000x10000, .bf16⟩
  | .local _ .vmem, ⟨20, _⟩ => ⟨S1000x10000, .bf16⟩
  | .local _ .vmem, ⟨21, _⟩ => ⟨S10000x1, .f32⟩
  | .local _ .vmem, ⟨22, _⟩ => ⟨S1x1, .f32⟩
  | .local _ .vmem, ⟨23, _⟩ => ⟨S1000x1, .f32⟩
  | .local _ .vmem, ⟨24, _⟩ => ⟨S1000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x64_S64x64_0_0 : ∀ a, (![0, 0] : Fin 2 → Nat) a + S64x64.size a ≤ S64x64.size a
  h_S64x64 : 0 < S64x64.numel
  inb_S400x64_S400x64_0_0 : ∀ a, (![0, 0] : Fin 2 → Nat) a + S400x64.size a ≤ S400x64.size a
  h_S400x64 : 0 < S400x64.numel
  shapeCasts_S64x1_S1x64 : S64x1.ShapeCasts S1x64
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x64_S1000x64 : S1x64.Broadcasts S1000x64
  reduces_S1000x64_S1000 : S1000x64.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S1000x10000_S10000x64_S1000x64_1_0_0_1_n_n_wf : DotDims.WF S1000x10000 S10000x64 S1000x64 [1] [0] [0] [1] [] []
  dot_S1000x10000_S10000x1_S1000x1_1_0_0_1_n_n_wf : DotDims.WF S1000x10000 S10000x1 S1000x1 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x10000.size a ≤ S10000x10000.size a
  hwx1_5 : ∀ i : grid1.Coords, EltTy.bits .bf16 = 32 ∨ (Rect.block (s := S10000x10000) S400x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x1.size a ≤ S10000x1.size a
  hwx2_4 : ∀ i : grid2.Coords, EltTy.bits .f32 = 32 ∨ (Rect.block (s := S10000x1) S1000x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S10000x1.size a
  hwx3_1 : ∀ i : grid3.Coords, EltTy.bits .f32 = 32 ∨ (Rect.block (s := S10000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x1.size a ≤ S10000x1.size a
  hwx3_3 : ∀ i : grid3.Coords, EltTy.bits .f32 = 32 ∨ (Rect.block (s := S10000x1) S1000x1.size (cc3_transform_3 i) (hinb3_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S1000x10000_S10000x1_S1000x1_1_0_0_1_n_n : DotDims S1000x10000 S10000x1 S1000x1 where
  lhsContracting := [1]
  rhsContracting := [0]
  lhsNonContracting := [0]
  rhsNonContracting := [1]
  lhsBatch := []
  rhsBatch := []
  wf := dot_S1000x10000_S10000x1_S1000x1_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S400x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S400x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S10000x64 : Shape := ⟨2, ![10000, 64]⟩
abbrev S1x64 : Shape := ⟨2, ![1, 64]⟩
abbrev S_ : Shape := ⟨0, ![]⟩
abbrev S10000x1 : Shape := ⟨2, ![10000, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S10000x128, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S10000x1, .f32⟩
  | .hbm, ⟨26, _⟩ => ⟨S1x1, .f32⟩
  | .hbm, ⟨27, _⟩ => ⟨S10000x1, .f32⟩
  | .hbm, ⟨28, _⟩ => ⟨S10000x1, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x1, .f32⟩
  | .hbm, ⟨34, _⟩ => ⟨S10000x1, .i1⟩
  | .hbm, ⟨35, _⟩ => ⟨S10000x1, .f32⟩
  | .hbm, ⟨36, _⟩ => ⟨S10000x1, .f32⟩
  | .hbm, ⟨37, _⟩ => ⟨S10000x1, .f32⟩
  | .hbm, ⟨38, _⟩ => ⟨S10000x1, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_v17 : Ref sig .tc := ⟨.hbm, 42, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.KernelRun.lean ====
/-
  The idealized kernel's run with its result named.

  The program is four kernel launches among three stretches of host reshapes. Its buffer contents at each boundary
  form a fold from the launch memory: a host stretch applies its operations, a launch leaves each of its output
  arrays at what its grid points wrote back and every other buffer as it found it. The last boundary's contents are
  `W7`; every execution ends with every unscoped buffer at `W7`, so in particular the result array ends at
  `W7 … main_v7` and the eight argument arrays as launched.
-/
import proofs.«155129_g86620900426038_cont_sun_m_497_8_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result array at the last boundary's contents
    and the argument arrays unchanged. -/
theorem run : θ_run defs (onTc (τ := τ) (main (F := F))) ⟨m, fun _ => 0, ρ⟩ (fun r => ∀ c : Dev nD,
      r.2.mem ((c.tc : Thread nD τ).loc main_v7) = W7 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v7 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.ValueRun

end
-- ==== Proof.Fold.lean ====
/-
  What each kernel launch finds in the buffers it reads.

  The program alternates launches and host reshapes. Between two boundaries a buffer changes only if the segment
  writes it: a launch writes its output arrays (each ends at what its grid points wrote back), a host reshape writes
  its one result (the operand's elements at the new shape). Walking each buffer a launch reads back through the
  segments before it:

    launch 1 reads the adjacency matrix and the second weight matrix as launched, launch 0's output, and the first
      bias as a row [1, 64];
    launch 2 reads launch 1's two outputs (the adjacency matrix's copy and the hidden layer), the second bias as a
      row, and the head's weights [64, 1] as a row [1, 64];
    launch 3 reads the adjacency matrix's copy, launch 2's output, and the head's bias as [1, 1];

  and the program's result is launch 3's output array.
-/
import proofs.«155129_g86620900426038_cont_sun_m_497_8_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A buffer that no operation of a host stretch writes keeps its contents across the stretch. -/
local macro "kept_by " ops:ident : tactic => `(tactic| (
  refine StableHlo.after_of_forall_not_mem _ _ (List.forall_iff_forall_mem.mp ?_)
  simp only [$ops:ident, List.Forall, StableHlo.reshape_writes, Finset.mem_singleton]
  repeat' apply And.intro
  all_goals exact StableHlo.devRef_ne_of_ne (by decide)))

/-! ## Launch 1's entry -/

theorem V2_arg1 (c : Dev nD) : V2 m ρ c main_arg1 = m ((c : Thread nD τ).loc main_arg1) :=
  calc W2 m ρ c (Proc.devRef .tc main_arg1)
    _ = W1 m ρ c (Proc.devRef .tc main_arg1) := by kept_by hostOps1
    _ = W0 m ρ c (Proc.devRef .tc main_arg1) := W1_of_ne m ρ c main_arg1 (by decide)
    _ = m ((c : Thread nD τ).loc main_arg1) := rfl

theorem V2_arg4 (c : Dev nD) : V2 m ρ c main_arg4 = m ((c : Thread nD τ).loc main_arg4) :=
  calc W2 m ρ c (Proc.devRef .tc main_arg4)
    _ = W1 m ρ c (Proc.devRef .tc main_arg4) := by kept_by hostOps1
    _ = W0 m ρ c (Proc.devRef .tc main_arg4) := W1_of_ne m ρ c main_arg4 (by decide)
    _ = m ((c : Thread nD τ).loc main_arg4) := rfl

theorem V2_v0 (c : Dev nD) : V2 m ρ c main_v0 = (dat0 (V0 m ρ) c).arrAt 2 cfg0.N :=
  calc W2 m ρ c (Proc.devRef .tc main_v0)
    _ = W1 m ρ c (Proc.devRef .tc main_v0) := by kept_by hostOps1
    _ = (dat0 (V0 m ρ) c).arrAt 2 cfg0.N := W1_arr m ρ c 2

theorem V2_v1 (c : Dev nD) :
    V2 m ρ c main_v1 = shapeCast S1x64 (m ((c : Thread nD τ).loc main_arg3)) shapeCasts_S64_S1x64 := by
  show StableHlo.after hostOps1 (W1 m ρ c) (Proc.devRef .tc main_v1) = _
  after_results
  rw [W1_of_ne m ρ c main_arg3 (by decide)]
  rfl

/-! ## Launch 2's entry -/

theorem V4_v2_1 (c : Dev nD) : V4 m ρ c main_v2_1 = (dat1 (V2 m ρ) c).arrAt 5 cfg1.N :=
  calc W4 m ρ c (Proc.devRef .tc main_v2_1)
    _ = W3 m ρ c (Proc.devRef .tc main_v2_1) := by kept_by hostOps2
    _ = (dat1 (V2 m ρ) c).arrAt 5 cfg1.N := W3_arr m ρ c 5

theorem V4_v2_0 (c : Dev nD) : V4 m ρ c main_v2_0 = (dat1 (V2 m ρ) c).arrAt 4 cfg1.N :=
  calc W4 m ρ c (Proc.devRef .tc main_v2_0)
    _ = W3 m ρ c (Proc.devRef .tc main_v2_0) := by kept_by hostOps2
    _ = (dat1 (V2 m ρ) c).arrAt 4 cfg1.N := W3_arr m ρ c 4

/-- An argument array that neither launch 0 nor launch 1 writes is as launched at launch 1's exit. -/
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := by kept_by hostOps1
    _ = W0 m ρ c (Proc.devRef .tc main_arg5) := W1_of_ne m ρ c main_arg5 (by decide)
    _ = m ((c : Thread nD τ).loc main_arg5) := rfl

theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := by kept_by hostOps1
    _ = W0 m ρ c (Proc.devRef .tc main_arg6) := W1_of_ne m ρ c main_arg6 (by decide)
    _ = m ((c : Thread nD τ).loc main_arg6) := rfl

theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := W3_of_ne m ρ c main_arg7 (by decide)
    _ = W1 m ρ c (Proc.devRef .tc main_arg7) := by kept_by hostOps1
    _ = W0 m ρ c (Proc.devRef .tc main_arg7) := W1_of_ne m ρ c main_arg7 (by decide)
    _ = m ((c : Thread nD τ).loc main_arg7) := rfl

theorem V4_v3 (c : Dev nD) :
    V4 m ρ c main_v3 = shapeCast S1x64 (m ((c : Thread nD τ).loc main_arg5)) shapeCasts_S64_S1x64 := by
  show StableHlo.after hostOps2 (W3 m ρ c) (Proc.devRef .tc main_v3) = _
  after_results
  rw [W3_arg5 m ρ c]
  rfl

theorem V4_v4 (c : Dev nD) :
    V4 m ρ c main_v4 = shapeCast S1x64 (m ((c : Thread nD τ).loc main_arg6)) shapeCasts_S64x1_S1x64 := by
  show StableHlo.after hostOps2 (W3 m ρ c) (Proc.devRef .tc main_v4) = _
  after_results
  rw [W3_arg6 m ρ c]
  rfl

/-! ## Launch 3's entry -/

theorem V6_v2_1 (c : Dev nD) : V6 m ρ c main_v2_1 = (dat1 (V2 m ρ) c).arrAt 5 cfg1.N :=
  calc W6 m ρ c (Proc.devRef .tc main_v2_1)
    _ = W5 m ρ c (Proc.devRef .tc main_v2_1) := by kept_by hostOps3
    _ = (dat2 (V4 m ρ) c).arrAt 0 cfg2.N := W5_arr m ρ c 0
    _ = V4 m ρ c main_v2_1 := ((dat2 (V4 m ρ) c).arrAt_in 0 rfl _).trans (A_eq2 (V4 m ρ) c 0)
    _ = (dat1 (V2 m ρ) c).arrAt 5 cfg1.N := V4_v2_1 m ρ c

theorem V6_v5 (c : Dev nD) : V6 m ρ c main_v5 = (dat2 (V4 m ρ) c).arrAt 4 cfg2.N :=
  calc W6 m ρ c (Proc.devRef .tc main_v5)
    _ = W5 m ρ c (Proc.devRef .tc main_v5) := by kept_by hostOps3
    _ = (dat2 (V4 m ρ) c).arrAt 4 cfg2.N := W5_arr m ρ c 4

theorem V6_v6 (c : Dev nD) :
    V6 m ρ c main_v6 = shapeCast S1x1 (m ((c : Thread nD τ).loc main_arg7)) shapeCasts_S1_S1x1 := by
  show StableHlo.after hostOps3 (W5 m ρ c) (Proc.devRef .tc main_v6) = _
  after_results
  have e : W5 m ρ c (Proc.devRef .tc main_arg7) = m ((c : Thread nD τ).loc main_arg7) :=
    calc W5 m ρ c (Proc.devRef .tc main_arg7)
      _ = W4 m ρ c (Proc.devRef .tc main_arg7) := W5_of_ne m ρ c main_arg7 (by decide)
      _ = W3 m ρ c (Proc.devRef .tc main_arg7) := by kept_by hostOps2
      _ = m ((c : Thread nD τ).loc main_arg7) := W3_arg7 m ρ c
  rw [e]
  rfl

/-! ## The result -/

theorem W7_v7 (c : Dev nD) : W7 m ρ c (Proc.devRef .tc main_v7) = (dat3 (V6 m ρ) c).arrAt 3 cfg3.N :=
  W7_arr m ρ c 3

end Cert.KernelIdeal.Fold

end
-- ==== Proof.Spec.lean ====
/-
  What the two programs compute, as plain functions of matrices of extended reals.

  A graph network with a dense N × N adjacency matrix A, node features X (N × Din), two hidden layers of width Dh
  and a scalar head: with relu x = max x 0 and softplus v = max v 0 + log (1 + exp (-|v|)),

    H1 = relu ((A · X) · W0 + b0),   H2 = relu ((A · H1) · W1 + b1),   out = softplus ((A · H2) · Wo + bo).

  The reference multiplies in that order (`rH1`, `rH2`, `rOut`). The kernel multiplies each layer's weights in
  BEFORE the adjacency matrix: G0 = X · W0, then relu (A · G0 + b0) = H1; G1 = H1 · W1, then relu (A · G1 + b1) = H2;
  G2 = H2 · Wo, then softplus (A · G2 + bo) (`kG0`, `kG1`, `kG2`, `kOut`). The two agree when every entry is a real
  number, by associativity of the matrix product (the module Algebra proves it).
-/
import Idealize.ShloMosaic.PureOps.Ideal

noncomputable section

open scoped BigOperators

namespace Cert.GraphNet

open Idealize.ShloMosaic

/-- relu on the extended reals. -/
def relu (x : EReal) : EReal := max x 0

/-- softplus on the extended reals, in the stable form log-add-exp of v and 0:
    max v 0 + log (1 + exp (-|v|)), with |v| = max v (-v). -/
def softplus (v : EReal) : EReal := max v 0 + Ideal.log1p (Ideal.exp (-(max v (-v))))

variable {N Din Dh : ℕ}
variable (X : Fin N → Fin Din → EReal) (A : Fin N → Fin N → EReal) (W0 : Fin Din → Fin Dh → EReal) (b0 : Fin Dh → EReal)
  (W1 : Fin Dh → Fin Dh → EReal) (b1 : Fin Dh → EReal) (Wo : Fin Dh → EReal) (bo : EReal)

/-! ## The kernel's order of multiplication -/

/-- G0 = X · W0. -/
def kG0 (n : Fin N) (e : Fin Dh) : EReal := ∑ k : Fin Din, X n k * W0 k e

/-- G1 = relu (A · G0 + b0) · W1. -/
def kG1 (n : Fin N) (d : Fin Dh) : EReal :=
  ∑ e : Fin Dh, relu ((∑ j : Fin N, A n j * kG0 X W0 j e) + b0 e) * W1 e d

/-- G2 = relu (A · G1 + b1) · Wo. -/
def kG2 (n : Fin N) : EReal :=
  ∑ e : Fin Dh, relu ((∑ j : Fin N, A n j * kG1 X A W0 b0 W1 j e) + b1 e) * Wo e

/-- The kernel's result: softplus (A · G2 + bo). -/
def kOut (n : Fin N) : EReal := softplus ((∑ j : Fin N, A n j * kG2 X A W0 b0 W1 b1 Wo j) + bo)

/-! ## The reference's order of multiplication -/

/-- H1 = relu ((A · X) · W0 + b0). -/
def rH1 (n : Fin N) (e : Fin Dh) : EReal :=
  relu ((∑ k : Fin Din, (∑ j : Fin N, A n j * X j k) * W0 k e) + b0 e)

/-- H2 = relu ((A · H1) · W1 + b1). -/
def rH2 (n : Fin N) (d : Fin Dh) : EReal :=
  relu ((∑ e : Fin Dh, (∑ j : Fin N, A n j * rH1 X A W0 b0 j e) * W1 e d) + b1 d)

/-- The reference's result: softplus ((A · H2) · Wo + bo). -/
def rOut (n : Fin N) : EReal :=
  softplus ((∑ e : Fin Dh, (∑ j : Fin N, A n j * rH2 X A W0 b0 W1 b1 j e) * Wo e) + bo)

end Cert.GraphNet

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.Region0.lean ====
/-
  The first launch (one grid point, whole-array blocks): the result array after it is the matrix product X · W of the
  two argument arrays as the launch finds them, entry by entry. The body rounds both operands (the identity on the
  extended reals) and multiplies them into the zero matrix; the one point's blocks are the whole arrays; its one
  write-back covers the result array.
-/
import proofs.«155129_g86620900426038_cont_sun_m_497_8_alg».proof.Proof.Spec
import proofs.«155129_g86620900426038_cont_sun_m_497_8_alg».proof.Proof.LibPlainProduct
import proofs.«155129_g86620900426038_cont_sun_m_497_8_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Region0
open Cert.KernelIdeal Cert.KernelIdeal.Gen

/-- The matrix product X · W read entry by entry: entry (n, e) is the sum over k of X(n, k) · W(k, e). -/
def prod (x : S10000x128.Idx → EReal) (w : S128x64.Idx → EReal) : S10000x64.Idx → EReal :=
  fun i => ∑ k : Fin 128, x (ix2 (i 0 : Fin 10000) k) * w (ix2 k (i 1 : Fin 64))

/-- The body's arithmetic at an entry: both operands are rounded (the identity on the extended reals) and multiplied
    into the zero matrix, so entry (p, q) is the plain sum of products. -/
theorem pay_apply (x0 : Vec Ideal S10000x128 .f32) (x1 : Vec Ideal S128x64 .f32) (p : Fin 10000) (q : Fin 64) :
    k0_pay1 (F := Ideal) x0 x1 (ix2 p q) = ∑ k : Fin 128, x0 (ix2 p k) * x1 (ix2 k q) := by
  unfold k0_pay1
  refine (Cert.LibPlainProduct.matmul_zero_plain_apply (M := 10000) (K := 128) (N := 64)
    Facts₀.dot_S10000x128_S128x64_S10000x64_1_0_0_1_n_n_wf none
    (truncf .bf16 x0 bitsLt_bf16_f32) (truncf .bf16 x1 bitsLt_bf16_f32) p q).trans ?_
  rfl

theorem hz : (![0, 0] : Fin 2 → Nat) = fun _ => 0 := funext fun a => by fin_cases a <;> rfl

/-- What the body leaves in the result's staging buffer, from the two loaded blocks: their product. The one store
    fills the whole buffer, and both loads read whole buffers. -/
theorem out_eq (X : Vec Ideal S10000x128 .f32) (W : Vec Ideal S128x64 .f32) : out0_2 (F := Ideal) X W = prod X W := by
  unfold out0_2
  rw [View.canon_unit_zero hz, View.ld_unit_zero hz, View.ld_unit_zero hz]
  funext y
  obtain ⟨p, q, rfl⟩ : ∃ (p : Fin 10000) (q : Fin 64), y = ix2 p q := ⟨y 0, y 1, eq_ix2 y⟩
  exact pay_apply X W p q

variable (V : (c : Dev nD) → (b : Ref sig .tc) → Buf (Elt Ideal) ((c : Thread nD τ).loc b))

/-- The one point's block of the left operand is the whole array X (block index 0 on both axes). -/
theorem iblk_whole0 (c : Dev nD) (t : Fin cfg0.N) :
    (iblk0 (F := Ideal) V c 0 t : Vec Ideal S10000x128 .f32) = V c main_arg0 := by
  obtain rfl : t = t0_0 := fin_N0 t
  have hi : win0_0.index t0_0 0 = 0 ∧ win0_0.index t0_0 1 = 0 := by decide
  funext j
  unfold iblk0
  rw [View.read_apply]
  show V c main_arg0 _ = V c main_arg0 _
  congr 1
  funext a
  apply Fin.ext
  match a with
  | ⟨0, _⟩ => show win0_0.index t0_0 0 * 10000 + 1 * (j 0).val = (j 0).val; rw [hi.1]; omega
  | ⟨1, _⟩ => show win0_0.index t0_0 1 * 128 + 1 * (j 1).val = (j 1).val; rw [hi.2]; omega

/-- The one point's block of the right operand is the whole array W. -/
theorem iblk_whole1 (c : Dev nD) (t : Fin cfg0.N) :
    (iblk0 (F := Ideal) V c 1 t : Vec Ideal S128x64 .f32) = V c main_arg2 := by
  obtain rfl : t = t0_0 := fin_N0 t
  have hi : win0_1.index t0_0 0 = 0 ∧ win0_1.index t0_0 1 = 0 := by decide
  funext j
  unfold iblk0
  rw [View.read_apply]
  show V c main_arg2 _ = V c main_arg2 _
  congr 1
  funext a
  apply Fin.ext
  match a with
  | ⟨0, _⟩ => show win0_1.index t0_0 0 * 128 + 1 * (j 0).val = (j 0).val; rw [hi.1]; omega
  | ⟨1, _⟩ => show win0_1.index t0_0 1 * 64 + 1 * (j 1).val = (j 1).val; rw [hi.2]; omega

/-- What the one point writes back is the one block — the whole — of the product of the two argument arrays. -/
theorem flushed_eq (c : Dev nD) (t : Fin cfg0.N) :
    (dat0 (F := Ideal) V c).flushed 2 t
      = ((cfg0.win 2).blk t).view.read (Elt Ideal) (prod (V c main_arg0) (V c main_arg2)) := by
  show (cfg0.win 2).cut (grid0.coords t) ((dat0 (F := Ideal) V c).after 2 t) = _
  rw [after0_2, iblk_whole0, iblk_whole1, out_eq]
  obtain rfl : t = t0_0 := fin_N0 t
  have hz' : (fun a => win0_2.index t0_0 a * main_v0.ty.shape.size a) = fun _ => 0 :=
    funext fun a => by fin_cases a <;> decide
  exact (Memref.read_access_unit_zero (Elt Ideal) main_v0 hz' (fun a => by rw [congrFun hz' a]; simp)
    (prod (V c main_arg0) (V c main_arg2))).symm

/-- Every entry of the result array is in the one point's block, which is the whole array. -/
theorem cover (i : S10000x64.Idx) :
    ∃ t : Fin cfg0.N, (cfg0.win 2).flush t = true ∧ i ∈ ((cfg0.win 2).blk t).view.set := by
  have h0 : (i 0 : Nat) < 10000 := (i 0).isLt
  have h1 : (i 1 : Nat) < 64 := (i 1).isLt
  refine ⟨t0_0, flush0_2 _, ?_⟩
  show i ∈ ((View.whole main_v0).slice (win0_2.rect t0_0)).set
  rw [View.set_slice_whole, Rect.mem_set_unit]
  intro a
  match a with
  | ⟨0, _⟩ =>
    show win0_2.index t0_0 0 * win0_2.size 0 ≤ (i 0 : Nat)
      ∧ (i 0 : Nat) < win0_2.index t0_0 0 * win0_2.size 0 + win0_2.xsize (grid0.coords t0_0) 0
    rw [show win0_2.index t0_0 0 * win0_2.size 0 = 0 from by decide +kernel,
      show win0_2.xsize (grid0.coords t0_0) 0 = 10000 from by decide +kernel]
    omega
  | ⟨1, _⟩ =>
    show win0_2.index t0_0 1 * win0_2.size 1 ≤ (i 1 : Nat)
      ∧ (i 1 : Nat) < win0_2.index t0_0 1 * win0_2.size 1 + win0_2.xsize (grid0.coords t0_0) 1
    rw [show win0_2.index t0_0 1 * win0_2.size 1 = 0 from by decide +kernel,
      show win0_2.xsize (grid0.coords t0_0) 1 = 64 from by decide +kernel]
    omega

/-- So the result array ends holding the product of the two argument arrays as the launch found them. -/
theorem final_prod (c : Dev nD) :
    (dat0 (F := Ideal) V c).arrAt 2 cfg0.N = prod (V c main_arg0) (V c main_arg2) :=
  (dat0 (F := Ideal) V c).arrAt_eq_of_cover 2 (prod (V c main_arg0) (V c main_arg2))
    (fun t _ => flushed_eq V c t) cover

/-- Entry (n, e) of the result array after the launch: the sum over k of X(n, k) · W(k, e). -/
theorem final (c : Dev nD) (x : S10000x128.Idx → EReal) (w : S128x64.Idx → EReal) (o : S10000x64.Idx → EReal)
    (hx : V c main_arg0 = x) (hw : V c main_arg2 = w) (ho : (dat0 (F := Ideal) V c).arrAt 2 cfg0.N = o)
    (n : Fin 10000) (e : Fin 64) :
    o (ix2 n e) = ∑ k : Fin 128, x (ix2 n k) * w (ix2 k e) := by
  subst hx hw ho
  exact congrFun (final_prod V c) (ix2 n e)

end Cert.KernelIdeal.Region0
end
-- ==== Proof.Region1.lean ====
/-
  The second launch (25 grid points, 400 rows of the adjacency matrix A per point): after it the first result array
  is relu (A · G + b) · W entry by entry, and the second result array is A (rounded: the identity on the extended
  reals), of the arrays as the launch finds them. At a point the body multiplies the rounded block of A by the rounded
  G into the zero matrix, adds the row b to every row, takes the maximum with zero, rounds, and multiplies by the
  rounded W into the zero matrix. The blocks of G, b and W are the whole arrays at every point; the blocks of A and of
  both results are the rows 400 t … 400 t + 399 at point t, and the 25 of them tile the 10000 rows.
-/
import proofs.«155129_g86620900426038_cont_sun_m_497_8_alg».proof.Proof.Spec
import proofs.«155129_g86620900426038_cont_sun_m_497_8_alg».proof.Proof.LibPlainProduct
import proofs.«155129_g86620900426038_cont_sun_m_497_8_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Region1
open Cert.KernelIdeal Cert.KernelIdeal.Gen

/-- relu (A · G + b) · W read entry by entry: entry (n, d) is the sum over e of
    relu (Σ_j A(n, j) · G(j, e) + b(e)) · W(e, d). -/
def hid (a : S10000x10000.Idx → EReal) (g : S10000x64.Idx → EReal) (b : S1x64.Idx → EReal) (w : S64x64.Idx → EReal) :
    S10000x64.Idx → EReal :=
  fun i => ∑ e : Fin 64, Cert.GraphNet.relu ((∑ j : Fin 10000, a (ix2 (i 0 : Fin 10000) j) * g (ix2 j e))
    + b (ix2 (0 : Fin 1) e)) * w (ix2 e (i 1 : Fin 64))

/-- The same for a block of 400 rows of A. -/
def hidBlk (x : S400x10000.Idx → EReal) (g : S10000x64.Idx → EReal) (b : S1x64.Idx → EReal) (w : S64x64.Idx → EReal) :
    S400x64.Idx → EReal :=
  fun y => ∑ e : Fin 64, Cert.GraphNet.relu ((∑ j : Fin 10000, x (ix2 (y 0 : Fin 400) j) * g (ix2 j e))
    + b (ix2 (0 : Fin 1) e)) * w (ix2 e (y 1 : Fin 64))

set_option maxHeartbeats 400000 in
/-- The first product of the body at an entry: the rounded block of A times the rounded G into the zero matrix is the
    plain sum of products (rounding and the cast of a shape to itself are the identity). -/
theorem prod1_apply (x0 : Vec Ideal S400x10000 .f32) (x1 : Vec Ideal S10000x64 .f32) (p : Fin 400) (e : Fin 64) :
    matmul (F := Ideal) dot_S400x10000_S10000x64_S400x64_1_0_0_1_n_n none (k1_pay1 x0)
        (truncf .bf16 (shapeCast S10000x64 x1 Facts₀.shapeCasts_S10000x64_S10000x64) bitsLt_bf16_f32)
        (constant S400x64 .f32 0x00000000#32) (ix2 p e)
      = ∑ j : Fin 10000, x0 (ix2 p j) * x1 (ix2 j e) := by
  refine (Cert.LibPlainProduct.matmul_zero_plain_apply (M := 400) (K := 10000) (N := 64)
    Facts₀.dot_S400x10000_S10000x64_S400x64_1_0_0_1_n_n_wf none (k1_pay1 x0)
    (truncf .bf16 (shapeCast S10000x64 x1 Facts₀.shapeCasts_S10000x64_S10000x64) bitsLt_bf16_f32) p e).trans ?_
  refine Finset.sum_congr rfl fun j _ => ?_
  show x0 (ix2 p j) * shapeCast S10000x64 x1 Facts₀.shapeCasts_S10000x64_S10000x64 (ix2 j e) = _
  rw [shapeCast_self]

set_option maxHeartbeats 400000 in
/-- The body's arithmetic at an entry (p, q) of the block. -/
theorem pay2_apply (x0 : Vec Ideal S400x10000 .f32) (x1 : Vec Ideal S10000x64 .f32) (x2 : Vec Ideal S1x64 .f32)
    (x3 : Vec Ideal S64x64 .f32) (p : Fin 400) (q : Fin 64) :
    k1_pay2 (F := Ideal) x0 x1 x2 x3 (ix2 p q)
      = ∑ e : Fin 64, Cert.GraphNet.relu ((∑ j : Fin 10000, x0 (ix2 p j) * x1 (ix2 j e)) + x2 (ix2 (0 : Fin 1) e))
          * x3 (ix2 e q) := by
  unfold k1_pay2
  refine (Cert.LibPlainProduct.matmul_zero_plain_apply (M := 400) (K := 64) (N := 64)
    Facts₀.dot_S400x64_S64x64_S400x64_1_0_0_1_n_n_wf none _ _ p q).trans ?_
  refine Finset.sum_congr rfl fun e _ => ?_
  refine congrArg₂ (· * ·) ?_ rfl
  show max (matmul (F := Ideal) dot_S400x10000_S10000x64_S400x64_1_0_0_1_n_n none (k1_pay1 x0)
        (truncf .bf16 (shapeCast S10000x64 x1 Facts₀.shapeCasts_S10000x64_S10000x64) bitsLt_bf16_f32)
        (constant S400x64 .f32 0x00000000#32) (ix2 p e)
      + broadcastTo S400x64 (shapeCast S1x64 x2 Facts₀.shapeCasts_S1x64_S1x64) Facts₀.broadcasts_S1x64_S400x64 (ix2 p e))
      (Ideal.ofBits .f32 0x00000000#32) = _
  rw [prod1_apply, broadcastTo_1b_ab_apply, shapeCast_self, Ideal.ofBits_zero_f32]
  rfl

theorem hz : (![0, 0] : Fin 2 → Nat) = fun _ => 0 := funext fun a => by fin_cases a <;> rfl

/-- What the body leaves in the first result's staging buffer, from the four loaded blocks: every load reads a whole
    buffer and the one store fills the whole buffer. -/
theorem out4_eq (X : Vec Ideal S400x10000 .f32) (G : Vec Ideal S10000x64 .f32) (B : Vec Ideal S1x64 .f32)
    (W : Vec Ideal S64x64 .f32) : out1_4 (F := Ideal) X G B W = hidBlk X G B W := by
  unfold out1_4
  rw [View.canon_unit_zero hz, View.ld_unit_zero hz, View.ld_unit_zero hz, View.ld_unit_zero hz, View.ld_unit_zero hz]
  funext y
  obtain ⟨p, q, rfl⟩ : ∃ (p : Fin 400) (q : Fin 64), y = ix2 p q := ⟨y 0, y 1, eq_ix2 y⟩
  exact pay2_apply X G B W p q

/-- What the body leaves in the second result's staging buffer: the block of A it loaded, rounded (the identity on
    the extended reals). -/
theorem out5_eq (X : Vec Ideal S400x10000 .f32) (G : Vec Ideal S10000x64 .f32) (B : Vec Ideal S1x64 .f32)
    (W : Vec Ideal S64x64 .f32) : (out1_5 (F := Ideal) X G B W : S400x10000.Idx → EReal) = X := by
  unfold out1_5
  rw [View.canon_unit_zero hz, View.ld_unit_zero hz]
  rfl

/-- A block entry of relu (A · G + b) · W is the whole-array entry whose row of A the block's row is. -/
theorem hid_of_blk (a : S10000x10000.Idx → EReal) (g : S10000x64.Idx → EReal) (b : S1x64.Idx → EReal)
    (w : S64x64.Idx → EReal) (x : S400x10000.Idx → EReal) (p : Fin 400) (q : Fin 64) (n : Fin 10000)
    (hx : ∀ j : Fin 10000, x (ix2 p j) = a (ix2 n j)) :
    hidBlk x g b w (ix2 p q) = hid a g b w (ix2 n q) := by
  unfold hidBlk hid
  refine Finset.sum_congr rfl fun e _ => ?_
  refine congrArg₂ (· * ·) (congrArg Cert.GraphNet.relu (congrArg₂ (· + ·) ?_ rfl)) rfl
  exact Finset.sum_congr rfl fun j _ => congrArg₂ (· * ·) (hx j) rfl

/-- The printed index maps over the grid: the blocks of A and of both results move with the point along the rows;
    the blocks of G, b and W are the whole arrays at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The block of A at point t is rows 400 t … 400 t + 399 of A. -/
theorem iblk_a_apply (c : Dev nD) (t : Fin cfg1.N) (y : S400x10000.Idx) (k : S10000x10000.Idx)
    (hk0 : (k 0).val = 400 * t.val + (y 0).val) (hk1 : (k 1).val = (y 1).val) :
    (iblk1 (F := Ideal) V c 0 t : Vec Ideal S400x10000 .f32) y = (V c main_arg1 : S10000x10000.Idx → EReal) k := by
  obtain ⟨e0, e1, -⟩ := idx_facts t
  unfold iblk1
  rw [View.read_apply]
  show V c main_arg1 _ = V c main_arg1 _
  congr 1
  funext a
  apply Fin.ext
  match a with
  | ⟨0, _⟩ => show win1_0.index t 0 * 400 + 1 * (y 0).val = (k 0).val; rw [e0, hk0]; omega
  | ⟨1, _⟩ => show win1_0.index t 1 * 10000 + 1 * (y 1).val = (k 1).val; rw [e1, hk1]; omega

/-- The block of G at every point is the whole array. -/
theorem iblk_g (c : Dev nD) (t : Fin cfg1.N) :
    (iblk1 (F := Ideal) V c 1 t : Vec Ideal S10000x64 .f32) = V c main_v0 := by
  obtain ⟨-, -, e0, e1, -⟩ := idx_facts t
  funext j
  unfold iblk1
  rw [View.read_apply]
  show V c main_v0 _ = V c main_v0 _
  congr 1
  funext a
  apply Fin.ext
  match a with
  | ⟨0, _⟩ => show win1_1.index t 0 * 10000 + 1 * (j 0).val = (j 0).val; rw [e0]; omega
  | ⟨1, _⟩ => show win1_1.index t 1 * 64 + 1 * (j 1).val = (j 1).val; rw [e1]; omega

/-- The block of b at every point is the whole row. -/
theorem iblk_b (c : Dev nD) (t : Fin cfg1.N) :
    (iblk1 (F := Ideal) V c 2 t : Vec Ideal S1x64 .f32) = V c main_v1 := by
  obtain ⟨-, -, -, -, e0, e1, -⟩ := idx_facts t
  funext j
  unfold iblk1
  rw [View.read_apply]
  show V c main_v1 _ = V c main_v1 _
  congr 1
  funext a
  apply Fin.ext
  match a with
  | ⟨0, _⟩ => show win1_2.index t 0 * 1 + 1 * (j 0).val = (j 0).val; rw [e0]; omega
  | ⟨1, _⟩ => show win1_2.index t 1 * 64 + 1 * (j 1).val = (j 1).val; rw [e1]; omega

/-- The block of W at every point is the whole array. -/
theorem iblk_w (c : Dev nD) (t : Fin cfg1.N) :
    (iblk1 (F := Ideal) V c 3 t : Vec Ideal S64x64 .f32) = V c main_arg4 := by
  obtain ⟨-, -, -, -, -, -, e0, e1, -⟩ := idx_facts t
  funext j
  unfold iblk1
  rw [View.read_apply]
  show V c main_arg4 _ = V c main_arg4 _
  congr 1
  funext a
  apply Fin.ext
  match a with
  | ⟨0, _⟩ => show win1_3.index t 0 * 64 + 1 * (j 0).val = (j 0).val; rw [e0]; omega
  | ⟨1, _⟩ => show win1_3.index t 1 * 64 + 1 * (j 1).val = (j 1).val; rw [e1]; omega

/-- What point t writes back to the first result is block t of relu (A · G + b) · W of the arrays as the launch finds
    them: entry (p, q) of the block sits at row 400 t + p, whose row of A is row p of the point's block of A. -/
theorem flushed4_eq (c : Dev nD) (t : Fin cfg1.N) :
    (dat1 (F := Ideal) V c).flushed 4 t = ((cfg1.win 4).blk t).view.read (Elt Ideal)
      (hid (V c main_arg1) (V c main_v0) (V c main_v1) (V c main_arg4)) := by
  show (cfg1.win 4).cut (grid1.coords t) ((dat1 (F := Ideal) V c).after 4 t) = _
  rw [after1_4, iblk_g, iblk_b, iblk_w, out4_eq]
  obtain ⟨-, -, -, -, -, -, -, -, e0, e1, -⟩ := idx_facts t
  have hN : cfg1.N = 25 := N_1
  have ht : t.val < 25 := hN ▸ t.isLt
  funext y
  have hy0 : (y 0).val < 400 := (y 0).isLt
  have hy1 : (y 1).val < 64 := (y 1).isLt
  rw [View.read_apply]
  have hemb : ((cfg1.win 4).blk t).view.emb y = ix2 (⟨400 * t.val + (y 0).val, by omega⟩ : Fin 10000) (⟨(y 1).val, hy1⟩ : Fin 64) := by
    funext a
    apply Fin.ext
    match a with
    | ⟨0, _⟩ => show win1_4.index t 0 * 400 + 1 * (y 0).val = 400 * t.val + (y 0).val; rw [e0]; omega
    | ⟨1, _⟩ => show win1_4.index t 1 * 64 + 1 * (y 1).val = (y 1).val; rw [e1]; omega
  rw [hemb]
  show hidBlk (iblk1 (F := Ideal) V c 0 t) (V c main_v0) (V c main_v1) (V c main_arg4)
      (ix2 (⟨(y 0).val, hy0⟩ : Fin 400) (⟨(y 1).val, hy1⟩ : Fin 64)) = _
  refine hid_of_blk _ _ _ _ _ _ _ _ fun j => ?_
  exact iblk_a_apply V c t _ _ rfl rfl

/-- What point t writes back to the second result is block t of A as the launch finds it. -/
theorem flushed5_eq (c : Dev nD) (t : Fin cfg1.N) :
    (dat1 (F := Ideal) V c).flushed 5 t = ((cfg1.win 5).blk t).view.read (Elt Ideal)
      (V c main_arg1 : S10000x10000.Idx → EReal) := by
  show (cfg1.win 5).cut (grid1.coords t) ((dat1 (F := Ideal) V c).after 5 t) = _
  rw [after1_5, out5_eq]
  obtain ⟨-, -, -, -, -, -, -, -, -, -, e0, e1⟩ := idx_facts t
  funext y
  rw [View.read_apply]
  show (iblk1 (F := Ideal) V c 0 t : Vec Ideal S400x10000 .f32) (fun a => ⟨(y a).val, _⟩) = _
  refine iblk_a_apply V c t _ _ ?_ ?_
  · show win1_5.index t 0 * 400 + 1 * (y 0).val = 400 * t.val + (y 0).val; rw [e0]; omega
  · show win1_5.index t 1 * 10000 + 1 * (y 1).val = (y 1).val; rw [e1]; omega

/-- An entry of the first result is in point t's block iff each coordinate is in the block's range on its axis. -/
theorem mem_blk4 (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v2_0).slice (win1_4.rect t)).set ↔ _
  rw [View.set_slice_whole, Rect.mem_set_unit]
  exact Iff.rfl

/-- Likewise for the second result. -/
theorem mem_blk5 (t : Fin cfg1.N) (i : S10000x10000.Idx) :
    i ∈ ((cfg1.win 5).blk t).view.set ↔ ∀ a : Fin 2, win1_5.index t a * S400x10000.size a ≤ (i a).val
      ∧ (i a).val < win1_5.index t a * S400x10000.size a + S400x10000.size a := by
  show i ∈ ((View.whole main_v2_1).slice (win1_5.rect t)).set ↔ _
  rw [View.set_slice_whole, Rect.mem_set_unit]
  exact Iff.rfl

/-- The 25 blocks of 400 rows tile the first result: row r is in the block of point r / 400. -/
theorem cover4 (i : S10000x64.Idx) :
    ∃ t : Fin cfg1.N, (cfg1.win 4).flush t = true ∧ i ∈ ((cfg1.win 4).blk t).view.set := by
  have h0 : (i 0).val < 10000 := (i 0).isLt
  have h1 : (i 1).val < 64 := (i 1).isLt
  have hN : cfg1.N = 25 := N_1
  have ht : (i 0).val / 400 < cfg1.N := by rw [hN]; omega
  obtain ⟨-, -, -, -, -, -, -, -, e0, e1, -⟩ := idx_facts ⟨(i 0).val / 400, ht⟩
  refine ⟨⟨(i 0).val / 400, ht⟩, flush1_4 _, ?_⟩
  rw [mem_blk4]
  intro a
  match a with
  | ⟨0, _⟩ =>
    show win1_4.index ⟨(i 0).val / 400, ht⟩ 0 * 400 ≤ (i 0).val
      ∧ (i 0).val < win1_4.index ⟨(i 0).val / 400, ht⟩ 0 * 400 + 400
    rw [e0]; dsimp only; omega
  | ⟨1, _⟩ =>
    show win1_4.index ⟨(i 0).val / 400, ht⟩ 1 * 64 ≤ (i 1).val
      ∧ (i 1).val < win1_4.index ⟨(i 0).val / 400, ht⟩ 1 * 64 + 64
    rw [e1]; omega

/-- The 25 blocks of 400 rows tile the second result. -/
theorem cover5 (i : S10000x10000.Idx) :
    ∃ t : Fin cfg1.N, (cfg1.win 5).flush t = true ∧ i ∈ ((cfg1.win 5).blk t).view.set := by
  have h0 : (i 0).val < 10000 := (i 0).isLt
  have h1 : (i 1).val < 10000 := (i 1).isLt
  have hN : cfg1.N = 25 := N_1
  have ht : (i 0).val / 400 < cfg1.N := by rw [hN]; omega
  obtain ⟨-, -, -, -, -, -, -, -, -, -, e0, e1⟩ := idx_facts ⟨(i 0).val / 400, ht⟩
  refine ⟨⟨(i 0).val / 400, ht⟩, flush1_5 _, ?_⟩
  rw [mem_blk5]
  intro a
  match a with
  | ⟨0, _⟩ =>
    show win1_5.index ⟨(i 0).val / 400, ht⟩ 0 * 400 ≤ (i 0).val
      ∧ (i 0).val < win1_5.index ⟨(i 0).val / 400, ht⟩ 0 * 400 + 400
    rw [e0]; dsimp only; omega
  | ⟨1, _⟩ =>
    show win1_5.index ⟨(i 0).val / 400, ht⟩ 1 * 10000 ≤ (i 1).val
      ∧ (i 1).val < win1_5.index ⟨(i 0).val / 400, ht⟩ 1 * 10000 + 10000
    rw [e1]; omega

/-- So the first result array ends holding relu (A · G + b) · W of the arrays as the launch found them, -/
theorem final_hid (c : Dev nD) :
    (dat1 (F := Ideal) V c).arrAt 4 cfg1.N = hid (V c main_arg1) (V c main_v0) (V c main_v1) (V c main_arg4) :=
  (dat1 (F := Ideal) V c).arrAt_eq_of_cover 4 (hid (V c main_arg1) (V c main_v0) (V c main_v1) (V c main_arg4))
    (fun t _ => flushed4_eq V c t) cover4

/-- and the second result array ends holding A. -/
theorem final_copy (c : Dev nD) :
    (dat1 (F := Ideal) V c).arrAt 5 cfg1.N = (V c main_arg1 : S10000x10000.Idx → EReal) :=
  (dat1 (F := Ideal) V c).arrAt_eq_of_cover 5 (V c main_arg1 : S10000x10000.Idx → EReal)
    (fun t _ => flushed5_eq V c t) cover5

/-- Entry (n, d) of the first result array after the launch. -/
theorem final_g1 (c : Dev nD) (a : S10000x10000.Idx → EReal) (g : S10000x64.Idx → EReal) (b : S1x64.Idx → EReal) (w : S64x64.Idx → EReal)
    (o : S10000x64.Idx → EReal)
    (ha : V c main_arg1 = a) (hg : V c main_v0 = g) (hb : V c main_v1 = b) (hw : V c main_arg4 = w)
    (ho : (dat1 (F := Ideal) V c).arrAt 4 cfg1.N = o) (n : Fin 10000) (d : Fin 64) :
    o (ix2 n d) = ∑ e : Fin 64, Cert.GraphNet.relu ((∑ j : Fin 10000, a (ix2 n j) * g (ix2 j e)) + b (ix2 (0 : Fin 1) e)) * w (ix2 e d) := by
  subst ha hg hb hw ho
  exact congrFun (final_hid V c) (ix2 n d)

/-- Entry (n, j) of the second result array after the launch: A's. -/
theorem final_adj (c : Dev nD) (a : S10000x10000.Idx → EReal) (o : S10000x10000.Idx → EReal)
    (ha : V c main_arg1 = a) (ho : (dat1 (F := Ideal) V c).arrAt 5 cfg1.N = o) (n j : Fin 10000) :
    o (ix2 n j) = a (ix2 n j) := by
  subst ha ho
  exact congrFun (final_copy V c) (ix2 n j)

end Cert.KernelIdeal.Region1
end
-- ==== Proof.LibColumnCast.lean ====
/-
  A vector of length n and the column [n, 1] that holds the same elements: a shape cast between the two keeps
  every element's row-major position, which is i for the vector's element i and i · 1 + 0 for the column's
  element (i, 0). So the cast to a column reads the vector at the row coordinate, and the cast back reads the
  column at (i, 0).
-/
import Idealize.ShloMosaic.Lib.ValueIdx
import Idealize.ShloMosaic.Lib.Pipeline.Value
import Idealize.ShloMosaic.Lib.ValueLayout

namespace Idealize.ShloMosaic.ColumnCast

open Idealize.ShloMosaic Idealize.ShloMosaic.ValueIdx

/-- A vector of length n cast to a column [n, 1] reads, at (i, u), the vector at i, whatever the unit
    coordinate u: the row-major positions are i · 1 + u with u = 0, and i. -/
theorem shapeCast_col_apply {α : Type} {n : ℕ} (x : (⟨1, ![n]⟩ : Shape).Idx → α)
    (h : (⟨1, ![n]⟩ : Shape).ShapeCasts (⟨2, ![n, 1]⟩ : Shape)) (i : Fin n) (u : Fin 1) :
    shapeCast (⟨2, ![n, 1]⟩ : Shape) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [n, 1] cast to a vector of length n reads, at i, the column at (i, 0): the row-major positions
    are i · 1 + 0 and i. -/
theorem shapeCast_uncol_apply {α : Type} {n : ℕ} (x : (⟨2, ![n, 1]⟩ : Shape).Idx → α)
    (h : (⟨2, ![n, 1]⟩ : Shape).ShapeCasts (⟨1, ![n]⟩ : Shape)) (i : Fin n) :
    shapeCast (⟨1, ![n]⟩ : Shape) x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ColumnCast
-- ==== Proof.Region2.lean ====
/-
  The third launch (10 grid points, 1000 rows of the adjacency matrix's copy A per point): after it the result column
  is relu (A · G + b) · w entry by entry, of the arrays as the launch finds them, with b and w rows [1, 64]. At a point
  the body multiplies the block of A by the rounded G (rounding is the identity on the extended reals) into the zero
  matrix, adds the row b to every row, takes the maximum with zero, multiplies every row entrywise by the row w, sums
  each row over its 64 lanes from zero, and writes the sums as a column. The blocks of G, b and w are the whole arrays at
  every point; the blocks of A and of the result are the rows 1000 t … 1000 t + 999 at point t, and the 10 of them tile
  the 10000 rows.
-/
import proofs.«155129_g86620900426038_cont_sun_m_497_8_alg».proof.Proof.Spec
import proofs.«155129_g86620900426038_cont_sun_m_497_8_alg».proof.Proof.LibPlainProduct
import proofs.«155129_g86620900426038_cont_sun_m_497_8_alg».proof.Proof.LibColumnCast
import proofs.«155129_g86620900426038_cont_sun_m_497_8_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section
open scoped BigOperators
open Idealize.ShloMosaic Idealize.ShloMosaic.TcCoe Idealize.SL.Sem Idealize.ShloMosaic.ValueIdx

namespace Cert.KernelIdeal.Region2
open Cert.KernelIdeal Cert.KernelIdeal.Gen
open Idealize.ShloMosaic.Pipeline (Dat)

/-! ## The body's arithmetic at one entry -/

/-- A sum over the 64 lanes of a [1000, 64] block, read at row r: the lanes' sum of that row. -/
theorem lane_sum (src : FVec Ideal S1000x64 .f32) (h : S1000x64.Reduces [1] S1000) (hφ : FKind.Formats .f32)
    (hacc : (0x00000000#32 : BitVec 32) = FKind.add.neutral .f32 hφ) (r : Fin 1000) :
    multiReduction .add [1] S1000 src 0x00000000#32 h hφ hacc (ix1 r) = ∑ e : Fin 64, src (ix2 r e) :=
  (Ideal.multiReduction_add_single src 0x00000000#32 h hφ hacc (ix1 r)).trans
    (Finset.sum_congr rfl fun e _ => congrArg src (funext fun c => Fin.ext (by
      match c with
      | ⟨0, _⟩ => rfl
      | ⟨1, _⟩ => rfl)))

/-- The body's result at row p of its block: with x0 the block of 1000 rows of the adjacency matrix, x1 the
    projected features, x2 the bias row and x3 the head's weight row,
    sum over e of max (sum over j of x0(p, j) · x1(j, e) + x2(0, e), 0) · x3(0, e). -/
theorem body_at_row (x0 : Vec Ideal S1000x10000 .bf16) (x1 : Vec Ideal S10000x64 .f32) (x2 x3 : Vec Ideal S1x64 .f32)
    (p : Fin 1000) (q : Fin 1) :
    k2_pay1 (F := Ideal) x0 x1 x2 x3 (ix2 p q)
      = ∑ e : Fin 64, max ((∑ j : Fin 10000, x0 (ix2 p j) * x1 (ix2 j e)) + x2 (ix2 (0 : Fin 1) e)) 0 * x3 (ix2 (0 : Fin 1) e) := by
  unfold k2_pay1
  refine (Idealize.ShloMosaic.ColumnCast.shapeCast_col_apply _ _ p q).trans ?_
  refine (lane_sum _ _ _ _ p).trans ?_
  refine Finset.sum_congr rfl fun e _ => ?_
  show max (matmul (F := Ideal) dot_S1000x10000_S10000x64_S1000x64_1_0_0_1_n_n none
            (shapeCast S1000x10000 x0 shapeCasts_S1000x10000_S1000x10000)
            (truncf FTy.bf16 (shapeCast S10000x64 x1 shapeCasts_S10000x64_S10000x64) bitsLt_bf16_f32)
            (constant S1000x64 FTy.f32 0x00000000#32) (ix2 p e)
          + broadcastTo S1000x64 (shapeCast S1x64 x2 shapeCasts_S1x64_S1x64) broadcasts_S1x64_S1000x64 (ix2 p e))
        (Ideal.ofBits .f32 0x00000000#32)
      * broadcastTo S1000x64 (shapeCast S1x64 x3 shapeCasts_S1x64_S1x64) broadcasts_S1x64_S1000x64 (ix2 p e) = _
  rw [shapeCast_self, shapeCast_self, shapeCast_self, shapeCast_self, Ideal.ofBits_zero_f32,
    broadcastTo_1b_ab_apply x2 broadcasts_S1x64_S1000x64 p e, broadcastTo_1b_ab_apply x3 broadcasts_S1x64_S1000x64 p e]
  refine congrArg (fun z => max (z + x2 (ix2 (0 : Fin 1) e)) 0 * x3 (ix2 (0 : Fin 1) e)) ?_
  exact Cert.LibPlainProduct.matmul_zero_plain_apply dot_S1000x10000_S10000x64_S1000x64_1_0_0_1_n_n_wf none x0
    (truncf FTy.bf16 x1 bitsLt_bf16_f32) p e

/-! ## The result array as one function of the input arrays -/

/-- Entry n of the result: sum over e of max (sum over j of a(n, j) · g(j, e) + b(0, e), 0) · w(0, e). -/
def headEntry (a : S10000x10000.Idx → EReal) (g : S10000x64.Idx → EReal) (b w : S1x64.Idx → EReal) (n : Fin 10000) : EReal :=
  ∑ e : Fin 64, max ((∑ j : Fin 10000, a (ix2 n j) * g (ix2 j e)) + b (ix2 (0 : Fin 1) e)) 0 * w (ix2 (0 : Fin 1) e)

/-- The [10000, 1] result array: entry (n, 0) is `headEntry` at n. -/
def headArray (a : S10000x10000.Idx → EReal) (g : S10000x64.Idx → EReal) (b w : S1x64.Idx → EReal) : S10000x1.Idx → EReal :=
  fun i => headEntry a g b w ⟨(i 0).val, idx2_lt0 i⟩

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the adjacency matrix and the result move one block of
    1000 rows per point; the other three windows are their whole arrays at every point. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Point t's block of the adjacency matrix is its rows 1000 t … 1000 t + 999. -/
theorem adjacency_block (c : Dev nD) (t : Fin cfg2.N) (p : Fin 1000) (j : Fin 10000) (hn : t.val * 1000 + p.val < 10000) :
    (iblk2 (F := Ideal) V c 0 t : S1000x10000.Idx → EReal) (ix2 p j)
      = (V c main_v2_1 : S10000x10000.Idx → EReal) (ix2 (⟨t.val * 1000 + p.val, hn⟩ : Fin 10000) j) := by
  obtain ⟨e0, e1, -⟩ := block_index t
  show (V c main_v2_1 : S10000x10000.Idx → EReal) (((cfg2.win 0).blk t).view.emb (ix2 p j)) = _
  refine congrArg (V c main_v2_1 : S10000x10000.Idx → EReal) (funext fun a => Fin.ext ?_)
  match a with
  | ⟨0, _⟩ => show win2_0.index t (0 : Fin 2) * 1000 + 1 * p.val = t.val * 1000 + p.val; rw [e0]; omega
  | ⟨1, _⟩ => show win2_0.index t (1 : Fin 2) * 10000 + 1 * j.val = j.val; rw [e1]; omega

/-- The projected features' block at any point is the whole array. -/
theorem features_block (c : Dev nD) (t : Fin cfg2.N) (j : Fin 10000) (e : Fin 64) :
    (iblk2 (F := Ideal) V c 1 t : S10000x64.Idx → EReal) (ix2 j e) = (V c main_v2_0 : S10000x64.Idx → EReal) (ix2 j e) := by
  obtain ⟨-, -, e0, e1, -⟩ := block_index t
  show (V c main_v2_0 : S10000x64.Idx → EReal) (((cfg2.win 1).blk t).view.emb (ix2 j e)) = _
  refine congrArg (V c main_v2_0 : S10000x64.Idx → EReal) (funext fun a => Fin.ext ?_)
  match a with
  | ⟨0, _⟩ => show win2_1.index t (0 : Fin 2) * 10000 + 1 * j.val = j.val; rw [e0]; omega
  | ⟨1, _⟩ => show win2_1.index t (1 : Fin 2) * 64 + 1 * e.val = e.val; rw [e1]; omega

/-- The bias row's block at any point is the whole row. -/
theorem bias_block (c : Dev nD) (t : Fin cfg2.N) (u : Fin 1) (e : Fin 64) :
    (iblk2 (F := Ideal) V c 2 t : S1x64.Idx → EReal) (ix2 u e) = (V c main_v3 : S1x64.Idx → EReal) (ix2 u e) := by
  obtain ⟨-, -, -, -, e0, e1, -⟩ := block_index t
  show (V c main_v3 : S1x64.Idx → EReal) (((cfg2.win 2).blk t).view.emb (ix2 u e)) = _
  refine congrArg (V c main_v3 : S1x64.Idx → EReal) (funext fun a => Fin.ext ?_)
  match a with
  | ⟨0, _⟩ => show win2_2.index t (0 : Fin 2) * 1 + 1 * u.val = u.val; rw [e0]; omega
  | ⟨1, _⟩ => show win2_2.index t (1 : Fin 2) * 64 + 1 * e.val = e.val; rw [e1]; omega

/-- The head's weight row's block at any point is the whole row. -/
theorem weights_block (c : Dev nD) (t : Fin cfg2.N) (u : Fin 1) (e : Fin 64) :
    (iblk2 (F := Ideal) V c 3 t : S1x64.Idx → EReal) (ix2 u e) = (V c main_v4 : S1x64.Idx → EReal) (ix2 u e) := by
  obtain ⟨-, -, -, -, -, -, e0, e1, -⟩ := block_index t
  show (V c main_v4 : S1x64.Idx → EReal) (((cfg2.win 3).blk t).view.emb (ix2 u e)) = _
  refine congrArg (V c main_v4 : S1x64.Idx → EReal) (funext fun a => Fin.ext ?_)
  match a with
  | ⟨0, _⟩ => show win2_3.index t (0 : Fin 2) * 1 + 1 * u.val = u.val; rw [e0]; omega
  | ⟨1, _⟩ => show win2_3.index t (1 : Fin 2) * 64 + 1 * e.val = e.val; rw [e1]; omega

/-- What point t writes back is block t of `headArray` of the arrays as the launch finds them: the body's one store through
    the whole staging buffer leaves its payload, whose row p is `headEntry` at row 1000 t + p of the arrays. -/
theorem writeback_eq (c : Dev nD) (t : Fin cfg2.N) :
    (dat2 (F := Ideal) V c).flushed 4 t
      = ((cfg2.win 4).blk t).view.read (Elt Ideal) (headArray (V c main_v2_1) (V c main_v2_0) (V c main_v3) (V c main_v4)) := by
  show (cfg2.win 4).cut (grid2.coords t) ((dat2 (F := Ideal) V c).after 4 t) = _
  rw [after2_4]
  unfold out2_4
  rw [View.canon_unit_zero zero_offsets]
  simp only [View.ld_unit_zero (S := S1000x10000) zero_offsets, View.ld_unit_zero (S := S10000x64) zero_offsets, View.ld_unit_zero (S := S1x64) zero_offsets]
  have hN : cfg2.N = 10 := N_2
  have ht : t.val < 10 := by have := t.isLt; omega
  obtain ⟨-, -, -, -, -, -, -, -, e0, e1⟩ := block_index t
  refine funext fun (y : S1000x1.Idx) => ?_
  obtain ⟨p, q, rfl⟩ : ∃ (p : Fin 1000) (q : Fin 1), y = ix2 p q := ⟨y 0, y 1, eq_ix2 y⟩
  have hn : t.val * 1000 + p.val < 10000 := by have := p.isLt; omega
  show k2_pay1 (F := Ideal) (iblk2 V c 0 t) (iblk2 V c 1 t) (iblk2 V c 2 t) (iblk2 V c 3 t) (ix2 p q)
    = headArray (V c main_v2_1) (V c main_v2_0) (V c main_v3) (V c main_v4) (((cfg2.win 4).blk t).view.emb (ix2 p q))
  refine (body_at_row _ _ _ _ p q).trans ?_
  have hrow : (⟨((((cfg2.win 4).blk t).view.emb (ix2 p q) : S10000x1.Idx) 0).val, idx2_lt0 _⟩ : Fin 10000)
      = ⟨t.val * 1000 + p.val, hn⟩ := Fin.ext (by
    show win2_4.index t (0 : Fin 2) * 1000 + 1 * p.val = t.val * 1000 + p.val
    rw [e0]; omega)
  unfold headArray
  rw [hrow]
  unfold headEntry
  refine Finset.sum_congr rfl fun e _ => ?_
  rw [bias_block V c t (0 : Fin 1) e, weights_block V c t (0 : Fin 1) e]
  refine congrArg (fun z => max (z + _) 0 * _) ?_
  refine Finset.sum_congr rfl fun j _ => ?_
  rw [adjacency_block V c t p j hn, features_block V c t j e]

/-- An index of the result array is in point t's block iff each coordinate is in the block's range on its axis. -/
theorem mem_block (t : Fin cfg2.N) (i : S10000x1.Idx) :
    i ∈ ((cfg2.win 4).blk t).view.set ↔ ∀ a : Fin 2, win2_4.index t a * S1000x1.size a ≤ (i a).val
      ∧ (i a).val < win2_4.index t a * S1000x1.size a + S1000x1.size a := by
  show i ∈ ((View.whole main_v5).slice (win2_4.rect t)).set ↔ _
  rw [View.set_slice_whole, Rect.mem_set_unit]
  exact Iff.rfl

/-- The ten blocks of 1000 rows tile the result array: row r is in the block of point r / 1000. -/
theorem blocks_tile (i : S10000x1.Idx) :
    ∃ t : Fin cfg2.N, (cfg2.win 4).flush t = true ∧ i ∈ ((cfg2.win 4).blk t).view.set := by
  have hN : cfg2.N = 10 := N_2
  have h0 : (i 0).val < 10000 := (i 0).isLt
  have h1 : (i 1).val < 1 := (i 1).isLt
  have ht : (i 0).val / 1000 < cfg2.N := by omega
  obtain ⟨-, -, -, -, -, -, -, -, e0, e1⟩ := block_index ⟨(i 0).val / 1000, ht⟩
  refine ⟨⟨(i 0).val / 1000, ht⟩, flush2_4 _, ?_⟩
  rw [mem_block]
  intro a
  match a with
  | ⟨0, _⟩ =>
    show win2_4.index ⟨(i 0).val / 1000, ht⟩ (0 : Fin 2) * 1000 ≤ (i 0).val
      ∧ (i 0).val < win2_4.index ⟨(i 0).val / 1000, ht⟩ (0 : Fin 2) * 1000 + 1000
    rw [e0]; dsimp only; omega
  | ⟨1, _⟩ =>
    show win2_4.index ⟨(i 0).val / 1000, ht⟩ (1 : Fin 2) * 1 ≤ (i 1).val
      ∧ (i 1).val < win2_4.index ⟨(i 0).val / 1000, ht⟩ (1 : Fin 2) * 1 + 1
    rw [e1]; omega

/-- The result array after the launch is `headArray` of the arrays as the launch finds them. -/
theorem array_eq (c : Dev nD) :
    (dat2 (F := Ideal) V c).arrAt 4 cfg2.N = headArray (V c main_v2_1) (V c main_v2_0) (V c main_v3) (V c main_v4) :=
  (dat2 (F := Ideal) V c).arrAt_eq_of_cover 4 (headArray (V c main_v2_1) (V c main_v2_0) (V c main_v3) (V c main_v4))
    (fun t _ => writeback_eq V c t) blocks_tile

/-- The launch's result at row n: relu (A · g + b) · w, row n. -/
theorem final (c : Dev nD) (a : S10000x10000.Idx → EReal) (g : S10000x64.Idx → EReal) (b : S1x64.Idx → EReal) (w : S1x64.Idx → EReal)
    (o : S10000x1.Idx → EReal)
    (ha : V c main_v2_1 = a) (hg : V c main_v2_0 = g) (hb : V c main_v3 = b) (hw : V c main_v4 = w)
    (ho : (dat2 (F := Ideal) V c).arrAt 4 cfg2.N = o) (n : Fin 10000) :
    o (ix2 n (0 : Fin 1)) = ∑ e : Fin 64, Cert.GraphNet.relu ((∑ j : Fin 10000, a (ix2 n j) * g (ix2 j e)) + b (ix2 (0 : Fin 1) e)) * w (ix2 (0 : Fin 1) e) := by
  subst ha hg hb hw ho
  rw [array_eq V c]
  rfl

end Cert.KernelIdeal.Region2

end
-- ==== Proof.Region3.lean ====
/-
  The fourth launch (10 grid points, 1000 rows of the adjacency matrix's copy A per point): after it the result column
  is softplus (A · g + b) entry by entry, of the arrays as the launch finds them, with g a column [10000, 1] and b of
  shape [1, 1]. At a point the body multiplies the block of A by the rounded g (rounding is the identity on the extended
  reals) into the zero column, adds b to every row, and applies softplus in the stable form
  max v 0 + log (1 + exp (0 - |v - 0|)), guarded by a comparison of v - 0 with itself that no extended real satisfies.
  The blocks of g and b are the whole arrays at every point; the blocks of A and of the result are the rows
  1000 t … 1000 t + 999 at point t, and the 10 of them tile the 10000 rows.
-/
import proofs.«155129_g86620900426038_cont_sun_m_497_8_alg».proof.Proof.Spec
import proofs.«155129_g86620900426038_cont_sun_m_497_8_alg».proof.Proof.LibPlainProduct
import proofs.«155129_g86620900426038_cont_sun_m_497_8_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section
open scoped BigOperators
open Idealize.ShloMosaic Idealize.ShloMosaic.TcCoe Idealize.SL.Sem Idealize.ShloMosaic.ValueIdx

namespace Cert.KernelIdeal.Region3
open Cert.KernelIdeal Cert.KernelIdeal.Gen
open Idealize.ShloMosaic.Pipeline (Dat)

/-! ## The body's arithmetic at one entry -/

/-- A value compared with itself for "ordered and not equal" is false. -/
theorem cmp_one_self (x : EReal) : Ideal.cmp .one x x = 0#1 := by
  simp [Ideal.cmp]

/-- The body's guarded softplus at a value z: the guard z - 0 ≠ z - 0 is false, so the result is the second
    branch, max z 0 + log1p (exp (0 - |z - 0|)) with |v| = max v (-v), which is softplus z since z - 0 = z
    and 0 - v = -v. -/
theorem softplus_form (z : EReal) :
    Scalar.select
        (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      = Cert.GraphNet.softplus z := by
  rw [Ideal.ofBits_zero_f32, sub_zero, cmp_one_self, select_zero, zero_sub]
  rfl

/-- The body's result at row p of its block: with x0 the block of 1000 rows of the adjacency matrix, x1 the
    column of head values and x2 the head's bias,
    softplus (sum over j of x0(p, j) · x1(j, 0) + x2(0, 0)). -/
theorem body_at_row (x0 : Vec Ideal S1000x10000 .bf16) (x1 : Vec Ideal S10000x1 .f32) (x2 : Vec Ideal S1x1 .f32)
    (p : Fin 1000) :
    k3_pay1 (F := Ideal) x0 x1 x2 (ix2 p (0 : Fin 1))
      = Cert.GraphNet.softplus ((∑ j : Fin 10000, x0 (ix2 p j) * x1 (ix2 j (0 : Fin 1))) + x2 (ix2 (0 : Fin 1) (0 : Fin 1))) := by
  unfold k3_pay1
  generalize hv : addf (matmul (F := Ideal) dot_S1000x10000_S10000x1_S1000x1_1_0_0_1_n_n none
        (shapeCast S1000x10000 x0 shapeCasts_S1000x10000_S1000x10000)
        (truncf FTy.bf16 (shapeCast S10000x1 x1 shapeCasts_S10000x1_S10000x1) bitsLt_bf16_f32)
        (constant S1000x1 FTy.f32 0x00000000#32))
      (broadcastTo S1000x1 (shapeCast S1x1 x2 shapeCasts_S1x1_S1x1) broadcasts_S1x1_S1000x1) = v9
  have hz : v9 (ix2 p (0 : Fin 1))
      = (∑ j : Fin 10000, x0 (ix2 p j) * x1 (ix2 j (0 : Fin 1))) + x2 (ix2 (0 : Fin 1) (0 : Fin 1)) := by
    subst hv
    show matmul (F := Ideal) dot_S1000x10000_S10000x1_S1000x1_1_0_0_1_n_n none
          (shapeCast S1000x10000 x0 shapeCasts_S1000x10000_S1000x10000)
          (truncf FTy.bf16 (shapeCast S10000x1 x1 shapeCasts_S10000x1_S10000x1) bitsLt_bf16_f32)
          (constant S1000x1 FTy.f32 0x00000000#32) (ix2 p (0 : Fin 1))
        + broadcastTo S1000x1 (shapeCast S1x1 x2 shapeCasts_S1x1_S1x1) broadcasts_S1x1_S1000x1 (ix2 p (0 : Fin 1)) = _
    rw [shapeCast_self, shapeCast_self, shapeCast_self,
      broadcastTo_1b_ab_apply x2 broadcasts_S1x1_S1000x1 p (0 : Fin 1)]
    refine congrArg (fun z => z + x2 (ix2 (0 : Fin 1) (0 : Fin 1))) ?_
    exact Cert.LibPlainProduct.matmul_zero_plain_apply dot_S1000x10000_S10000x1_S1000x1_1_0_0_1_n_n_wf none x0
      (truncf FTy.bf16 x1 bitsLt_bf16_f32) p (0 : Fin 1)
  exact (softplus_form (v9 (ix2 p (0 : Fin 1)))).trans (congrArg Cert.GraphNet.softplus hz)

/-! ## The result array as one function of the input arrays -/

/-- Entry n of the result: softplus (sum over j of a(n, j) · g(j, 0) + b(0, 0)). -/
def outEntry (a : S10000x10000.Idx → EReal) (g : S10000x1.Idx → EReal) (b : S1x1.Idx → EReal) (n : Fin 10000) : EReal :=
  Cert.GraphNet.softplus ((∑ j : Fin 10000, a (ix2 n j) * g (ix2 j (0 : Fin 1))) + b (ix2 (0 : Fin 1) (0 : Fin 1)))

/-- The [10000, 1] result array: entry (n, 0) is `outEntry` at n. -/
def outArray (a : S10000x10000.Idx → EReal) (g : S10000x1.Idx → EReal) (b : S1x1.Idx → EReal) : S10000x1.Idx → EReal :=
  fun i => outEntry a g b ⟨(i 0).val, idx2_lt0 i⟩

variable (V : (c : Dev nD) → (b : Ref sig .tc) → Buf (Elt Ideal) ((c : Thread nD τ).loc b))

theorem zero_offsets : (![0, 0] : Fin 2 → Nat) = fun _ => 0 := funext fun a => by fin_cases a <;> rfl

/-- The block index of every window at every grid point: the adjacency matrix and the result move one block of
    1000 rows per point; the other two windows are their whole arrays at every point. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point t's block of the adjacency matrix is its rows 1000 t … 1000 t + 999. -/
theorem adjacency_block (c : Dev nD) (t : Fin cfg3.N) (p : Fin 1000) (j : Fin 10000) (hn : t.val * 1000 + p.val < 10000) :
    (iblk3 (F := Ideal) V c 0 t : S1000x10000.Idx → EReal) (ix2 p j)
      = (V c main_v2_1 : S10000x10000.Idx → EReal) (ix2 (⟨t.val * 1000 + p.val, hn⟩ : Fin 10000) j) := by
  obtain ⟨e0, e1, -⟩ := block_index t
  show (V c main_v2_1 : S10000x10000.Idx → EReal) (((cfg3.win 0).blk t).view.emb (ix2 p j)) = _
  refine congrArg (V c main_v2_1 : S10000x10000.Idx → EReal) (funext fun a => Fin.ext ?_)
  match a with
  | ⟨0, _⟩ => show win3_0.index t (0 : Fin 2) * 1000 + 1 * p.val = t.val * 1000 + p.val; rw [e0]; omega
  | ⟨1, _⟩ => show win3_0.index t (1 : Fin 2) * 10000 + 1 * j.val = j.val; rw [e1]; omega

/-- The head values' block at any point is the whole column. -/
theorem head_block (c : Dev nD) (t : Fin cfg3.N) (j : Fin 10000) (u : Fin 1) :
    (iblk3 (F := Ideal) V c 1 t : S10000x1.Idx → EReal) (ix2 j u) = (V c main_v5 : S10000x1.Idx → EReal) (ix2 j u) := by
  obtain ⟨-, -, e0, e1, -⟩ := block_index t
  show (V c main_v5 : S10000x1.Idx → EReal) (((cfg3.win 1).blk t).view.emb (ix2 j u)) = _
  refine congrArg (V c main_v5 : S10000x1.Idx → EReal) (funext fun a => Fin.ext ?_)
  match a with
  | ⟨0, _⟩ => show win3_1.index t (0 : Fin 2) * 10000 + 1 * j.val = j.val; rw [e0]; omega
  | ⟨1, _⟩ => show win3_1.index t (1 : Fin 2) * 1 + 1 * u.val = u.val; rw [e1]; omega

/-- The bias's block at any point is the whole [1, 1] array. -/
theorem bias_block (c : Dev nD) (t : Fin cfg3.N) (u v : Fin 1) :
    (iblk3 (F := Ideal) V c 2 t : S1x1.Idx → EReal) (ix2 u v) = (V c main_v6 : S1x1.Idx → EReal) (ix2 u v) := by
  obtain ⟨-, -, -, -, e0, e1, -⟩ := block_index t
  show (V c main_v6 : S1x1.Idx → EReal) (((cfg3.win 2).blk t).view.emb (ix2 u v)) = _
  refine congrArg (V c main_v6 : S1x1.Idx → EReal) (funext fun a => Fin.ext ?_)
  match a with
  | ⟨0, _⟩ => show win3_2.index t (0 : Fin 2) * 1 + 1 * u.val = u.val; rw [e0]; omega
  | ⟨1, _⟩ => show win3_2.index t (1 : Fin 2) * 1 + 1 * v.val = v.val; rw [e1]; omega

/-- What point t writes back is block t of `outArray` of the arrays as the launch finds them: the body's one store
    through the whole staging buffer leaves its payload, whose row p is `outEntry` at row 1000 t + p of the arrays. -/
theorem writeback_eq (c : Dev nD) (t : Fin cfg3.N) :
    (dat3 (F := Ideal) V c).flushed 3 t
      = ((cfg3.win 3).blk t).view.read (Elt Ideal) (outArray (V c main_v2_1) (V c main_v5) (V c main_v6)) := by
  show (cfg3.win 3).cut (grid3.coords t) ((dat3 (F := Ideal) V c).after 3 t) = _
  rw [after3_3]
  unfold out3_3
  rw [View.canon_unit_zero zero_offsets]
  simp only [View.ld_unit_zero (S := S1000x10000) zero_offsets, View.ld_unit_zero (S := S10000x1) zero_offsets,
    View.ld_unit_zero (S := S1x1) zero_offsets]
  have hN : cfg3.N = 10 := N_3
  have ht : t.val < 10 := by have := t.isLt; omega
  obtain ⟨-, -, -, -, -, -, e0, e1⟩ := block_index t
  refine funext fun (y : S1000x1.Idx) => ?_
  obtain ⟨p, q, rfl⟩ : ∃ (p : Fin 1000) (q : Fin 1), y = ix2 p q := ⟨y 0, y 1, eq_ix2 y⟩
  obtain rfl : q = 0 := Subsingleton.elim _ _
  have hn : t.val * 1000 + p.val < 10000 := by have := p.isLt; omega
  show k3_pay1 (F := Ideal) (iblk3 V c 0 t) (iblk3 V c 1 t) (iblk3 V c 2 t) (ix2 p (0 : Fin 1))
    = outArray (V c main_v2_1) (V c main_v5) (V c main_v6) (((cfg3.win 3).blk t).view.emb (ix2 p (0 : Fin 1)))
  refine (body_at_row _ _ _ p).trans ?_
  have hrow : (⟨((((cfg3.win 3).blk t).view.emb (ix2 p (0 : Fin 1)) : S10000x1.Idx) 0).val, idx2_lt0 _⟩ : Fin 10000)
      = ⟨t.val * 1000 + p.val, hn⟩ := Fin.ext (by
    show win3_3.index t (0 : Fin 2) * 1000 + 1 * p.val = t.val * 1000 + p.val
    rw [e0]; omega)
  unfold outArray
  rw [hrow]
  unfold outEntry
  rw [bias_block V c t (0 : Fin 1) (0 : Fin 1)]
  refine congrArg (fun z => Cert.GraphNet.softplus (z + _)) ?_
  refine Finset.sum_congr rfl fun j _ => ?_
  rw [adjacency_block V c t p j hn, head_block V c t j (0 : Fin 1)]

/-- An index of the result array is in point t's block iff each coordinate is in the block's range on its axis. -/
theorem mem_block (t : Fin cfg3.N) (i : S10000x1.Idx) :
    i ∈ ((cfg3.win 3).blk t).view.set ↔ ∀ a : Fin 2, win3_3.index t a * S1000x1.size a ≤ (i a).val
      ∧ (i a).val < win3_3.index t a * S1000x1.size a + S1000x1.size a := by
  show i ∈ ((View.whole main_v7).slice (win3_3.rect t)).set ↔ _
  rw [View.set_slice_whole, Rect.mem_set_unit]
  exact Iff.rfl

/-- The ten blocks of 1000 rows tile the result array: row r is in the block of point r / 1000. -/
theorem blocks_tile (i : S10000x1.Idx) :
    ∃ t : Fin cfg3.N, (cfg3.win 3).flush t = true ∧ i ∈ ((cfg3.win 3).blk t).view.set := by
  have hN : cfg3.N = 10 := N_3
  have h0 : (i 0).val < 10000 := (i 0).isLt
  have h1 : (i 1).val < 1 := (i 1).isLt
  have ht : (i 0).val / 1000 < cfg3.N := by omega
  obtain ⟨-, -, -, -, -, -, e0, e1⟩ := block_index ⟨(i 0).val / 1000, ht⟩
  refine ⟨⟨(i 0).val / 1000, ht⟩, flush3_3 _, ?_⟩
  rw [mem_block]
  intro a
  match a with
  | ⟨0, _⟩ =>
    show win3_3.index ⟨(i 0).val / 1000, ht⟩ (0 : Fin 2) * 1000 ≤ (i 0).val
      ∧ (i 0).val < win3_3.index ⟨(i 0).val / 1000, ht⟩ (0 : Fin 2) * 1000 + 1000
    rw [e0]; dsimp only; omega
  | ⟨1, _⟩ =>
    show win3_3.index ⟨(i 0).val / 1000, ht⟩ (1 : Fin 2) * 1 ≤ (i 1).val
      ∧ (i 1).val < win3_3.index ⟨(i 0).val / 1000, ht⟩ (1 : Fin 2) * 1 + 1
    rw [e1]; omega

/-- The result array after the launch is `outArray` of the arrays as the launch finds them. -/
theorem array_eq (c : Dev nD) :
    (dat3 (F := Ideal) V c).arrAt 3 cfg3.N = outArray (V c main_v2_1) (V c main_v5) (V c main_v6) :=
  (dat3 (F := Ideal) V c).arrAt_eq_of_cover 3 (outArray (V c main_v2_1) (V c main_v5) (V c main_v6))
    (fun t _ => writeback_eq V c t) blocks_tile

/-- The launch's result at row n: softplus (A · g + b), row n. -/
theorem final (c : Dev nD) (a : S10000x10000.Idx → EReal) (g : S10000x1.Idx → EReal) (b : S1x1.Idx → EReal) (o : S10000x1.Idx → EReal)
    (ha : V c main_v2_1 = a) (hg : V c main_v5 = g) (hb : V c main_v6 = b)
    (ho : (dat3 (F := Ideal) V c).arrAt 3 cfg3.N = o) (n : Fin 10000) :
    o (ix2 n (0 : Fin 1)) = Cert.GraphNet.softplus ((∑ j : Fin 10000, a (ix2 n j) * g (ix2 j (0 : Fin 1))) + b (ix2 (0 : Fin 1) (0 : Fin 1))) := by
  subst ha hg hb ho
  rw [array_eq V c]
  rfl

end Cert.KernelIdeal.Region3

end
-- ==== Proof.LibRowCast.lean ====
/-
  A vector of length n and the row [1, n] that holds the same elements: a shape cast between the two keeps every
  element's row-major position, which is j for the vector's element j and 0 · n + j for the row's element (0, j).
  So the cast to a row reads the vector at the column coordinate, and the cast back reads the row at (0, j).
-/
import Idealize.ShloMosaic.Lib.ValueIdx
import Idealize.ShloMosaic.Lib.Pipeline.Value
import Idealize.ShloMosaic.Lib.ValueLayout

namespace Idealize.ShloMosaic.RowCast

open Idealize.ShloMosaic Idealize.ShloMosaic.ValueIdx

/-- A vector of length n cast to a row [1, n] reads, at (u, j), the vector at j, whatever the unit coordinate u:
    the row-major positions are u · n + j with u = 0, and j. -/
theorem shapeCast_row_apply {α : Type} {n : ℕ} (x : (⟨1, ![n]⟩ : Shape).Idx → α)
    (h : (⟨1, ![n]⟩ : Shape).ShapeCasts (⟨2, ![1, n]⟩ : Shape)) (u : Fin 1) (j : Fin n) :
    shapeCast (⟨2, ![1, n]⟩ : Shape) x h (ix2 u j) = x (ix1 j) :=
  shapeCast_apply x h _ _ (by
    have hu : u.val = 0 := by omega
    rw [Shape.rowMajor_val_two, Shape.rowMajor_val_one]
    show j.val = u.val * n + j.val
    rw [hu, Nat.zero_mul, Nat.zero_add])

/-- A row [1, n] cast to a vector of length n reads, at j, the row at (0, j): the row-major positions are
    0 · n + j and j. -/
theorem shapeCast_unrow_apply {α : Type} {n : ℕ} (x : (⟨2, ![1, n]⟩ : Shape).Idx → α)
    (h : (⟨2, ![1, n]⟩ : Shape).ShapeCasts (⟨1, ![n]⟩ : Shape)) (j : Fin n) :
    shapeCast (⟨1, ![n]⟩ : Shape) x h (ix1 j) = x (ix2 (0 : Fin 1) j) :=
  shapeCast_apply x h _ _ (by
    rw [Shape.rowMajor_val_two, Shape.rowMajor_val_one]
    show (0 : ℕ) * n + j.val = j.val
    rw [Nat.zero_mul, Nat.zero_add])

end Idealize.ShloMosaic.RowCast
-- ==== Proof.KernelValue.lean ====
/-
  The idealized kernel's result, entry by entry, is the specification's `kOut` of the argument arrays.

  Launch 0 leaves G0 = X · W0. Launch 1 copies the adjacency matrix A and leaves G1 = relu (A · G0 + b0) · W1, the first
  bias read through its reshape to a row. Launch 2 leaves G2 = relu (A · G1 + b1) · Wo, reading A's copy, the second
  bias as a row and the head's weights [64, 1] as a row [1, 64]. Launch 3 leaves softplus (A · G2 + bo), the head's
  bias read through its reshape to [1, 1]. Each launch's statement is taken at the buffer contents the launch finds
  (module Fold), and the earlier launches' arrays are substituted under the sums.
-/
import proofs.«155129_g86620900426038_cont_sun_m_497_8_alg».proof.Proof.Fold
import proofs.«155129_g86620900426038_cont_sun_m_497_8_alg».proof.Proof.Region0
import proofs.«155129_g86620900426038_cont_sun_m_497_8_alg».proof.Proof.Region1
import proofs.«155129_g86620900426038_cont_sun_m_497_8_alg».proof.Proof.Region2
import proofs.«155129_g86620900426038_cont_sun_m_497_8_alg».proof.Proof.Region3
import proofs.«155129_g86620900426038_cont_sun_m_497_8_alg».proof.Proof.Spec
import proofs.«155129_g86620900426038_cont_sun_m_497_8_alg».proof.Proof.LibRowCast
import Idealize.ShloMosaic.Lib.ValueIdx
import Idealize.ShloMosaic.Lib.Pipeline.Value

set_option maxRecDepth 16384

noncomputable section

open scoped BigOperators

namespace Cert.KernelIdeal.KernelValue

open Cert.KernelIdeal Cert.KernelIdeal.Gen
open Idealize.ShloMosaic Idealize.ShloMosaic.TcCoe Idealize.SL.Sem Idealize.ShloMosaic.ValueIdx
open Cert.GraphNet

variable (m : (ℓ : Loc nD τ sig) → Buf (Elt Ideal) ℓ) (ρ : Dev nD → PrngReg) (c : Dev nD)

/-! ## The argument arrays as matrices -/

/-- The node features, N × 128. -/
def X : Fin 10000 → Fin 128 → EReal := fun n k => m ((c : Thread nD τ).loc main_arg0) (ix2 n k)
/-- The adjacency matrix, N × N. -/
def A : Fin 10000 → Fin 10000 → EReal := fun n j => m ((c : Thread nD τ).loc main_arg1) (ix2 n j)
/-- The first layer's weights, 128 × 64. -/
def W0 : Fin 128 → Fin 64 → EReal := fun k e => m ((c : Thread nD τ).loc main_arg2) (ix2 k e)
/-- The first layer's bias. -/
def b0 : Fin 64 → EReal := fun e => m ((c : Thread nD τ).loc main_arg3) (ix1 e)
/-- The second layer's weights, 64 × 64. -/
def W1 : Fin 64 → Fin 64 → EReal := fun e d => m ((c : Thread nD τ).loc main_arg4) (ix2 e d)
/-- The second layer's bias. -/
def b1 : Fin 64 → EReal := fun e => m ((c : Thread nD τ).loc main_arg5) (ix1 e)
/-- The head's weights, a column [64, 1]. -/
def Wo : Fin 64 → EReal := fun e => m ((c : Thread nD τ).loc main_arg6) (ix2 e (0 : Fin 1))
/-- The head's bias. -/
def bo : EReal := m ((c : Thread nD τ).loc main_arg7) (ix1 (0 : Fin 1))

/-! ## The reshapes read at an entry -/

/-- A bias [64] as a row [1, 64]: entry (0, e) is entry e. -/
theorem row_apply (x : S64.Idx → EReal) (e : Fin 64) :
    shapeCast S1x64 x shapeCasts_S64_S1x64 (ix2 (0 : Fin 1) e) = x (ix1 e) :=
  RowCast.shapeCast_row_apply x _ 0 e

/-- A column [64, 1] as a row [1, 64]: entry (0, e) is entry (e, 0); both sit at row-major position e. -/
theorem col_row_apply (x : S64x1.Idx → EReal) (e : Fin 64) :
    shapeCast S1x64 x shapeCasts_S64x1_S1x64 (ix2 (0 : Fin 1) e) = x (ix2 e (0 : Fin 1)) :=
  shapeCast_apply x _ _ _ (by
    rw [Shape.rowMajor_val_two, Shape.rowMajor_val_two]
    show e.val * 1 + 0 = 0 * 64 + e.val
    omega)

/-- A bias [1] as [1, 1]: its one entry. -/
theorem one_apply (x : S1.Idx → EReal) :
    shapeCast S1x1 x shapeCasts_S1_S1x1 (ix2 (0 : Fin 1) (0 : Fin 1)) = x (ix1 (0 : Fin 1)) :=
  RowCast.shapeCast_row_apply x _ 0 0

/-! ## The four launches -/

/-- Launch 0 leaves G0 = X · W0. -/
theorem g0_apply (n : Fin 10000) (e : Fin 64) :
    (dat0 (V0 m ρ) c).arrAt 2 cfg0.N (ix2 n e) = kG0 (X m c) (W0 m c) n e :=
  Region0.final (V0 m ρ) c _ _ _ rfl rfl rfl n e

/-- Launch 1's second output is the adjacency matrix. -/
theorem adj_apply (n j : Fin 10000) :
    (dat1 (V2 m ρ) c).arrAt 5 cfg1.N (ix2 n j) = A m c n j :=
  Region1.final_adj (V2 m ρ) c _ _ (Fold.V2_arg1 m ρ c) rfl n j

/-- Launch 1's first output is G1 = relu (A · G0 + b0) · W1. -/
theorem g1_apply (n : Fin 10000) (d : Fin 64) :
    (dat1 (V2 m ρ) c).arrAt 4 cfg1.N (ix2 n d) = kG1 (X m c) (A m c) (W0 m c) (b0 m c) (W1 m c) n d := by
  refine (Region1.final_g1 (V2 m ρ) c _ _ _ _ _ (Fold.V2_arg1 m ρ c) (Fold.V2_v0 m ρ c) (Fold.V2_v1 m ρ c)
    (Fold.V2_arg4 m ρ c) rfl n d).trans ?_
  unfold kG1
  refine Finset.sum_congr rfl fun e _ => ?_
  refine congrArg₂ (fun x y : EReal => x * y) (congrArg relu (congrArg₂ (fun x y : EReal => x + y)
    (Finset.sum_congr rfl fun j _ => ?_) ?_)) rfl
  · rw [g0_apply m ρ c j e]; rfl
  · exact row_apply _ e

/-- Launch 2 leaves G2 = relu (A · G1 + b1) · Wo. -/
theorem g2_apply (n : Fin 10000) :
    (dat2 (V4 m ρ) c).arrAt 4 cfg2.N (ix2 n (0 : Fin 1))
      = kG2 (X m c) (A m c) (W0 m c) (b0 m c) (W1 m c) (b1 m c) (Wo m c) n := by
  refine (Region2.final (V4 m ρ) c _ _ _ _ _ (Fold.V4_v2_1 m ρ c) (Fold.V4_v2_0 m ρ c) (Fold.V4_v3 m ρ c)
    (Fold.V4_v4 m ρ c) rfl n).trans ?_
  unfold kG2
  refine Finset.sum_congr rfl fun e _ => ?_
  refine congrArg₂ (fun x y : EReal => x * y) (congrArg relu (congrArg₂ (fun x y : EReal => x + y)
    (Finset.sum_congr rfl fun j _ => ?_) ?_)) ?_
  · rw [adj_apply m ρ c n j, g1_apply m ρ c j e]
  · exact row_apply _ e
  · exact col_row_apply _ e

/-- Launch 3 leaves softplus (A · G2 + bo). -/
theorem out_apply (n : Fin 10000) :
    (dat3 (V6 m ρ) c).arrAt 3 cfg3.N (ix2 n (0 : Fin 1))
      = kOut (X m c) (A m c) (W0 m c) (b0 m c) (W1 m c) (b1 m c) (Wo m c) (bo m c) n := by
  refine (Region3.final (V6 m ρ) c _ _ _ _ (Fold.V6_v2_1 m ρ c) (Fold.V6_v5 m ρ c) (Fold.V6_v6 m ρ c) rfl n).trans ?_
  unfold kOut
  refine congrArg softplus (congrArg₂ (fun x y : EReal => x + y) (Finset.sum_congr rfl fun j _ => ?_) ?_)
  · rw [adj_apply m ρ c n j, g2_apply m ρ c j]
  · exact one_apply _

/-- The program's result array, entry (n, 0). -/
theorem result_apply (n : Fin 10000) :
    W7 m ρ c (Proc.devRef .tc main_v7) (ix2 n (0 : Fin 1))
      = kOut (X m c) (A m c) (W0 m c) (b0 m c) (W1 m c) (b1 m c) (Wo m c) (bo m c) n :=
  (congrFun (Fold.W7_v7 m ρ c) (ix2 n (0 : Fin 1))).trans (out_apply m ρ c n)

end Cert.KernelIdeal.KernelValue

end
-- ==== Proof.RefValue.lean ====
/-
  The reference program's result, read at an index, is the specification's `rOut` of the argument arrays.

  The reference computes H1 = relu ((A · X) · W0 + b0), H2 = relu ((A · H1) · W1 + b1) and
  out = softplus ((A · H2) · Wo + bo), one stage per operation. Each stage is read at an index from its operands at
  an index: a matrix product is the sum over the contracted axis, a broadcast reads its operand at the matching
  coordinate, the zero constant is 0, and a pointwise operation acts entry by entry. `stage_h1` and `stage_h2` identify
  the two hidden layers with `rH1` and `rH2` (the second uses the first under its sums), `stage_pre` the head before
  its activation, and `stage_softplus` the activation: max v 0 + log (1 + exp (-|v|)) guarded by `v ≠ v`, which is
  false for every extended real.
-/
import proofs.«155129_g86620900426038_cont_sun_m_497_8_alg».proof.Proof.Spec
import proofs.«155129_g86620900426038_cont_sun_m_497_8_alg».proof.Proof.Gen.ReferenceIdeal.Read
import Idealize.ShloMosaic.Lib.ValueIdx

noncomputable section
open scoped BigOperators
open Idealize.ShloMosaic Idealize.ShloMosaic.TcCoe Idealize.SL.Sem Idealize.ShloMosaic.ValueIdx

namespace Cert.ReferenceIdeal.RefValue
open Cert.ReferenceIdeal Cert.ReferenceIdeal.Gen Cert.ReferenceIdeal.Read

/-! ## The operand indices of the matrix products and broadcasts, at coordinates -/

theorem lidx_v0 (n : Fin 10000) (k : Fin 128) (j : Fin 10000) : lidx_main_v0 (ix2 n k) j = ix2 n j := by
  funext a; match a with | ⟨0, _⟩ => rfl | ⟨1, _⟩ => rfl
theorem ridx_v0 (n : Fin 10000) (k : Fin 128) (j : Fin 10000) : ridx_main_v0 (ix2 n k) j = ix2 j k := by
  funext a; match a with | ⟨0, _⟩ => rfl | ⟨1, _⟩ => rfl
theorem lidx_v1 (n : Fin 10000) (e : Fin 64) (k : Fin 128) : lidx_main_v1 (ix2 n e) k = ix2 n k := by
  funext a; match a with | ⟨0, _⟩ => rfl | ⟨1, _⟩ => rfl
theorem ridx_v1 (n : Fin 10000) (e : Fin 64) (k : Fin 128) : ridx_main_v1 (ix2 n e) k = ix2 k e := by
  funext a; match a with | ⟨0, _⟩ => rfl | ⟨1, _⟩ => rfl
theorem idx_v3_v2 (n : Fin 10000) (e : Fin 64) : idx_main_v2 (idx_main_v3 (ix2 n e)) = ix1 e := by
  funext a; match a with | ⟨0, _⟩ => rfl

/-- The first hidden layer: relu ((A · X) · W0 + b0), entry by entry. -/
theorem stage_h1 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (n : Fin 10000) (e : Fin 64) :
    val_main_v5 (F := Ideal) x0 x1 x2 x3 (ix2 n e)
      = Cert.GraphNet.rH1 (fun n k => x0 (ix2 n k)) (fun n j => x1 (ix2 n j)) (fun k e => x2 (ix2 k e)) (fun e => x3 (ix1 e)) n e := by
  rw [val_main_v5_apply, val_main_v4_apply, val_main_v1_apply, val_main_v3_apply, val_main_v2_apply,
    val_main_call0_v0_apply, val_main_call0_cst_apply, Ideal.maximumf_def, Ideal.addf_def, Ideal.ofBits_def,
    Ideal.ofBits_zero_f32, idx_v3_v2]
  unfold Cert.GraphNet.rH1 Cert.GraphNet.relu
  refine congrArg (fun s : EReal => max (s + (x3 (ix1 e) : EReal)) 0) ?_
  refine Finset.sum_congr rfl fun k _ => ?_
  rw [lidx_v1, ridx_v1, val_main_v0_apply]
  refine congrArg (fun s : EReal => s * (x2 (ix2 k e) : EReal)) ?_
  refine Finset.sum_congr rfl fun j _ => ?_
  rw [lidx_v0, ridx_v0]

theorem lidx_v6 (n : Fin 10000) (e : Fin 64) (j : Fin 10000) : lidx_main_v6 (ix2 n e) j = ix2 n j := by
  funext a; match a with | ⟨0, _⟩ => rfl | ⟨1, _⟩ => rfl
theorem ridx_v6 (n : Fin 10000) (e : Fin 64) (j : Fin 10000) : ridx_main_v6 (ix2 n e) j = ix2 j e := by
  funext a; match a with | ⟨0, _⟩ => rfl | ⟨1, _⟩ => rfl
theorem lidx_v7 (n : Fin 10000) (d : Fin 64) (e : Fin 64) : lidx_main_v7 (ix2 n d) e = ix2 n e := by
  funext a; match a with | ⟨0, _⟩ => rfl | ⟨1, _⟩ => rfl
theorem ridx_v7 (n : Fin 10000) (d : Fin 64) (e : Fin 64) : ridx_main_v7 (ix2 n d) e = ix2 e d := by
  funext a; match a with | ⟨0, _⟩ => rfl | ⟨1, _⟩ => rfl
theorem idx_v9_v8 (n : Fin 10000) (d : Fin 64) : idx_main_v8 (idx_main_v9 (ix2 n d)) = ix1 d := by
  funext a; match a with | ⟨0, _⟩ => rfl

/-- The second hidden layer: relu ((A · H1) · W1 + b1), entry by entry. -/
theorem stage_h2 (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (n : Fin 10000) (d : Fin 64) :
    val_main_v11 (F := Ideal) x0 x1 x2 x3 x4 x5 (ix2 n d)
      = Cert.GraphNet.rH2 (fun n k => x0 (ix2 n k)) (fun n j => x1 (ix2 n j)) (fun k e => x2 (ix2 k e)) (fun e => x3 (ix1 e))
          (fun e d => x4 (ix2 e d)) (fun e => x5 (ix1 e)) n d := by
  rw [val_main_v11_apply, val_main_v10_apply, val_main_v7_apply, val_main_v9_apply, val_main_v8_apply,
    val_main_call1_v0_apply, val_main_call1_cst_apply, Ideal.maximumf_def, Ideal.addf_def, Ideal.ofBits_def,
    Ideal.ofBits_zero_f32, idx_v9_v8]
  unfold Cert.GraphNet.rH2 Cert.GraphNet.relu
  refine congrArg (fun s : EReal => max (s + (x5 (ix1 d) : EReal)) 0) ?_
  refine Finset.sum_congr rfl fun e _ => ?_
  rw [lidx_v7, ridx_v7, val_main_v6_apply]
  refine congrArg (fun s : EReal => s * (x4 (ix2 e d) : EReal)) ?_
  refine Finset.sum_congr rfl fun j _ => ?_
  rw [lidx_v6, ridx_v6, stage_h1]

theorem lidx_v12 (n : Fin 10000) (e : Fin 64) (j : Fin 10000) : lidx_main_v12 (ix2 n e) j = ix2 n j := by
  funext a; match a with | ⟨0, _⟩ => rfl | ⟨1, _⟩ => rfl
theorem ridx_v12 (n : Fin 10000) (e : Fin 64) (j : Fin 10000) : ridx_main_v12 (ix2 n e) j = ix2 j e := by
  funext a; match a with | ⟨0, _⟩ => rfl | ⟨1, _⟩ => rfl
theorem lidx_v13 (n : Fin 10000) (e : Fin 64) : lidx_main_v13 (ix2 n (0 : Fin 1)) e = ix2 n e := by
  funext a; match a with | ⟨0, _⟩ => rfl | ⟨1, _⟩ => rfl
theorem ridx_v13 (n : Fin 10000) (e : Fin 64) : ridx_main_v13 (ix2 n (0 : Fin 1)) e = ix2 e (0 : Fin 1) := by
  funext a; match a with | ⟨0, _⟩ => rfl | ⟨1, _⟩ => rfl
theorem idx_v15_v14 (n : Fin 10000) : idx_main_v14 (idx_main_v15 (ix2 n (0 : Fin 1))) = ix1 (0 : Fin 1) := by
  funext a; match a with | ⟨0, _⟩ => rfl

/-- The head before its activation: (A · H2) · Wo + bo, entry by entry. -/
theorem stage_pre (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (n : Fin 10000) :
    val_main_v16 (F := Ideal) x0 x1 x2 x3 x4 x5 x6 x7 (ix2 n (0 : Fin 1))
      = (∑ e : Fin 64, (∑ j : Fin 10000, (x1 (ix2 n j) : EReal)
            * Cert.GraphNet.rH2 (fun n k => x0 (ix2 n k)) (fun n j => x1 (ix2 n j)) (fun k e => x2 (ix2 k e)) (fun e => x3 (ix1 e))
                (fun e d => x4 (ix2 e d)) (fun e => x5 (ix1 e)) j e) * (x6 (ix2 e (0 : Fin 1)) : EReal))
          + (x7 (ix1 (0 : Fin 1)) : EReal) := by
  rw [val_main_v16_apply, val_main_v13_apply, val_main_v15_apply, val_main_v14_apply, Ideal.addf_def, idx_v15_v14]
  refine congrArg (fun s : EReal => s + (x7 (ix1 (0 : Fin 1)) : EReal)) ?_
  refine Finset.sum_congr rfl fun e _ => ?_
  rw [lidx_v13, ridx_v13, val_main_v12_apply]
  refine congrArg (fun s : EReal => s * (x6 (ix2 e (0 : Fin 1)) : EReal)) ?_
  refine Finset.sum_congr rfl fun j _ => ?_
  rw [lidx_v12, ridx_v12, stage_h2]

/-! ## The head's activation -/

/-- "Not equal" of a value with itself is false on the extended reals (the order has no unordered pair). -/
theorem cmp_une_self (d : EReal) : Ideal.cmp .une d d = 0#1 := by
  simp [Ideal.cmp]

/-- A select on the false bit takes its second branch. -/
theorem select_false {α : Type} (a b : α) : Scalar.select (0#1) a b = b := by
  unfold Scalar.select; rw [if_neg (by decide)]

/-- The activation's thirteen operations (the guard `v ≠ v` never fires; subtracting and adding the zero constant
    change nothing) are softplus of the value they are applied to. -/
theorem stage_softplus (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (i : S10000x1.Idx) :
    val_main_v17 (F := Ideal) x0 x1 x2 x3 x4 x5 x6 x7 i
      = Cert.GraphNet.softplus (val_main_v16 (F := Ideal) x0 x1 x2 x3 x4 x5 x6 x7 i) := by
  rw [val_main_v17_apply, val_main_call2_v4_apply, val_main_call2_v11_apply, val_main_call2_v1_apply,
    val_main_call2_v10_apply, val_main_call2_v9_apply, val_main_call2_v8_apply, val_main_call2_v7_apply,
    val_main_call2_v3_apply, val_main_call2_v0_apply, val_main_call2_v2_apply, val_main_call2_cst_apply]
  generalize val_main_v16 (F := Ideal) x0 x1 x2 x3 x4 x5 x6 x7 i = v
  generalize val_main_call2_v6 (F := Ideal) x0 x1 x2 x3 x4 x5 x6 x7 i = u
  rw [Ideal.cmpf_def, cmp_une_self, select_false, Ideal.addf_def, Ideal.maximumf_def, Ideal.hostUnary_log1p_def,
    Ideal.hostUnary_exp_def, Ideal.hostNegf_def, Ideal.negf_def, Ideal.hostAbsf_def, Ideal.absf_def, Ideal.subf_def,
    Ideal.ofBits_def, Ideal.ofBits_zero_f32, sub_zero]
  rfl

/-- The reference program's result at row n is the specification's `rOut` of the argument arrays. -/
theorem result_apply (x0 : (⟨S10000x128, .f32⟩ : BufTy).Contents (Elt Ideal)) (x1 : (⟨S10000x10000, .f32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (n : Fin 10000) :
    Cert.ReferenceIdeal.Read.val_main_v17 (F := Ideal) x0 x1 x2 x3 x4 x5 x6 x7 (ix2 n (0 : Fin 1))
      = Cert.GraphNet.rOut (fun n k => x0 (ix2 n k)) (fun n j => x1 (ix2 n j)) (fun k e => x2 (ix2 k e)) (fun e => x3 (ix1 e))
          (fun e d => x4 (ix2 e d)) (fun e => x5 (ix1 e)) (fun e => x6 (ix2 e (0 : Fin 1))) (x7 (ix1 (0 : Fin 1))) n := by
  rw [stage_softplus, stage_pre]
  rfl

end Cert.ReferenceIdeal.RefValue

end
-- ==== Proof.LibMaskAlgebra.lean ====
/-
  The algebra behind a matching-cost matrix whose cross-entropy and focal parts are folded into one
  contraction.

  For a prediction x write  p = 1/(1+e^(-x)),  neg = softplus x = max x 0 + log (1 + e^(-|x|))  and
  pos = softplus (-x).  Since  softplus (-x) = softplus x - x,  the two target-weighted sums
      ∑ pos·t + ∑ neg·(1-t)          and          ∑ (1-p)²·pos·t + ∑ p²·neg·(1-t)
  are  ∑ (-x)·t + ∑ neg  and  ∑ ((1-p)²·pos - p²·neg)·t + ∑ p²·neg : what multiplies the target is
  collected into one family, what does not is a plain row sum.  Over the reals this is distributivity;
  nothing is assumed about the targets t (they need not be 0 or 1).

  The extended reals are not a ring (a product does not distribute over a sum when an infinity meets a
  sum of opposite signs), so the identity is transferred to them only for families all of whose entries
  are real numbers: every such expression is the image of the same expression over ℝ.  The file also reads
  the operations of the extended-real instance on real arguments, names the constants that occur, and
  regroups a sum over 4 × 2048 tiled positions into a sum over 8192 positions.
-/
import Idealize.ShloMosaic.PureOps.Ideal
import Mathlib.Tactic
import Mathlib.Algebra.BigOperators.Fin
import Mathlib.Logic.Equiv.Fin.Basic

noncomputable section

namespace MaskAlgebra

open scoped BigOperators
open Idealize.ShloMosaic

/-! ### Over the reals -/

/-- The softplus of x written with a maximum and an absolute value. -/
def softplus (x : ℝ) : ℝ := max x 0 + Real.log (1 + Real.exp (-|x|))

/-- softplus (-x) = softplus x - x : the absolute value does not see the sign, and
    max (-x) 0 = max x 0 - x. -/
theorem softplus_neg (x : ℝ) :
    max (-x) 0 + Real.log (1 + Real.exp (-|-x|))
      = (max x 0 + Real.log (1 + Real.exp (-|x|))) - x := by
  rw [abs_neg]
  rcases le_total 0 x with h | h
  · rw [max_eq_right (by linarith), max_eq_left h]; ring
  · rw [max_eq_left (by linarith), max_eq_right h]; ring

/-- A real power with exponent 2 is the product of the base with itself, for every real base. -/
theorem rpow_two_eq_mul (y : ℝ) : Real.rpow y 2 = y * y := by
  show y ^ (2 : ℝ) = y * y
  rw [Real.rpow_two, sq]

/-- The folding identity over the reals, for any divisor d (d = 0 included: both sides then divide by
    zero in the same way): the cross-entropy and focal sums against a target t and its complement are
    one sum against t plus two row sums. -/
theorem fold_real {ι : Type*} (s : Finset ι) (x p neg t : ι → ℝ) (d : ℝ) :
    5 * ((∑ i ∈ s, (neg i - x i) * t i + ∑ i ∈ s, neg i * (1 - t i)) / d)
      + 5 * ((∑ i ∈ s, ((1 - p i) ^ 2 * (neg i - x i)) * t i
              + ∑ i ∈ s, (p i ^ 2 * neg i) * (1 - t i)) / d)
    = (∑ i ∈ s, (5 * (0 - x i)
          + 5 * ((1 - p i) * (1 - p i) * (neg i - x i) - p i * p i * neg i)) * t i) * (1 / d)
      + (5 * ∑ i ∈ s, neg i + 5 * ∑ i ∈ s, p i * p i * neg i) * (1 / d) := by
  have key : ∀ i, 5 * ((neg i - x i) * t i + neg i * (1 - t i))
        + 5 * (((1 - p i) ^ 2 * (neg i - x i)) * t i + (p i ^ 2 * neg i) * (1 - t i))
      = (5 * (0 - x i) + 5 * ((1 - p i) * (1 - p i) * (neg i - x i) - p i * p i * neg i)) * t i
        + (5 * neg i + 5 * (p i * p i * neg i)) := fun i => by ring
  have hL : 5 * ((∑ i ∈ s, (neg i - x i) * t i + ∑ i ∈ s, neg i * (1 - t i)) / d)
      + 5 * ((∑ i ∈ s, ((1 - p i) ^ 2 * (neg i - x i)) * t i
              + ∑ i ∈ s, (p i ^ 2 * neg i) * (1 - t i)) / d)
      = (∑ i ∈ s, (5 * ((neg i - x i) * t i + neg i * (1 - t i))
        + 5 * (((1 - p i) ^ 2 * (neg i - x i)) * t i + (p i ^ 2 * neg i) * (1 - t i)))) * (1 / d) := by
    simp only [Finset.sum_add_distrib, ← Finset.mul_sum]; ring
  rw [hL, Finset.sum_congr rfl (fun i _ => key i)]
  simp only [Finset.sum_add_distrib, ← Finset.mul_sum]; ring

/-! ### Real members of the extended reals -/

/-- An extended real that is a real number. -/
def IsReal (a : EReal) : Prop := ∃ r : ℝ, a = (r : EReal)

/-- A real number is real. -/
theorem isReal_coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- A real member is neither infinity. -/
theorem IsReal.ne_bot_top {a : EReal} (h : IsReal a) : a ≠ ⊥ ∧ a ≠ ⊤ := by
  obtain ⟨r, rfl⟩ := h
  exact ⟨EReal.coe_ne_bot r, EReal.coe_ne_top r⟩

/-- An extended real that is neither infinity is real. -/
theorem isReal_of_ne {a : EReal} (hb : a ≠ ⊥) (ht : a ≠ ⊤) : IsReal a :=
  ⟨a.toReal, (EReal.coe_toReal ht hb).symm⟩

/-- Sums of reals are real. -/
theorem IsReal.add {a b : EReal} (ha : IsReal a) (hb : IsReal b) : IsReal (a + b) := by
  obtain ⟨r, rfl⟩ := ha; obtain ⟨s, rfl⟩ := hb
  exact ⟨r + s, (EReal.coe_add r s).symm⟩

/-- Differences of reals are real. -/
theorem IsReal.sub {a b : EReal} (ha : IsReal a) (hb : IsReal b) : IsReal (a - b) := by
  obtain ⟨r, rfl⟩ := ha; obtain ⟨s, rfl⟩ := hb
  exact ⟨r - s, (EReal.coe_sub r s).symm⟩

/-- Products of reals are real. -/
theorem IsReal.mul {a b : EReal} (ha : IsReal a) (hb : IsReal b) : IsReal (a * b) := by
  obtain ⟨r, rfl⟩ := ha; obtain ⟨s, rfl⟩ := hb
  exact ⟨r * s, (EReal.coe_mul r s).symm⟩

/-- The opposite of a real is real. -/
theorem IsReal.neg {a : EReal} (ha : IsReal a) : IsReal (-a) := by
  obtain ⟨r, rfl⟩ := ha
  exact ⟨-r, (EReal.coe_neg r).symm⟩

/-- The coercion of the reals into the extended reals commutes with the maximum. -/
theorem coe_max (r s : ℝ) : max (r : EReal) (s : EReal) = ((max r s : ℝ) : EReal) :=
  (EReal.coe_strictMono.monotone.map_max).symm

/-- The maximum of two reals is real. -/
theorem IsReal.max {a b : EReal} (ha : IsReal a) (hb : IsReal b) : IsReal (max a b) := by
  obtain ⟨r, rfl⟩ := ha; obtain ⟨s, rfl⟩ := hb
  exact ⟨Max.max r s, coe_max r s⟩

/-- The absolute value, written max a (-a), of a real number. -/
theorem abs_coe (r : ℝ) : max (r : EReal) (-(r : EReal)) = ((|r| : ℝ) : EReal) := by
  rw [← EReal.coe_neg, coe_max]; rfl

/-- The absolute value max a (-a) of a real is real. -/
theorem IsReal.abs {a : EReal} (ha : IsReal a) : IsReal (Max.max a (-a)) :=
  ha.max ha.neg

/-- The coercion of the reals into the extended reals commutes with a finite sum. -/
theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A family of real members is the image of a real family. -/
theorem exists_real_fun {ι : Type*} (y : ι → EReal) (hy : ∀ i, IsReal (y i)) :
    ∃ y' : ι → ℝ, y = fun i => ((y' i : ℝ) : EReal) := by
  choose y' hy' using hy
  exact ⟨y', funext hy'⟩

/-! ### The operations of the extended-real instance on real arguments -/

/-- The exponential of a real is real. -/
theorem IsReal.exp {a : EReal} (ha : IsReal a) : IsReal (Ideal.exp a) := by
  obtain ⟨r, rfl⟩ := ha
  exact ⟨Real.exp r, Ideal.exp_coe r⟩

/-- log (1 + r) for a real r > -1, read in the extended reals. -/
theorem log1p_coe {r : ℝ} (hr : -1 < r) :
    Ideal.log1p (r : EReal) = ((Real.log (1 + r) : ℝ) : EReal) := by
  have h : (1 : EReal) + (r : EReal) = ((1 + r : ℝ) : EReal) := by
    rw [EReal.coe_add, EReal.coe_one]
  rw [Ideal.log1p, h, Ideal.log_coe, if_neg (by linarith)]

/-- log (1 + e^r), read in the extended reals. -/
theorem log1p_exp_coe (r : ℝ) :
    Ideal.log1p (Ideal.exp (r : EReal)) = ((Real.log (1 + Real.exp r) : ℝ) : EReal) := by
  rw [Ideal.exp_coe, log1p_coe (by linarith [Real.exp_pos r])]

/-- log (1 + r) is real for a real r > -1. -/
theorem isReal_log1p {r : ℝ} (hr : -1 < r) : IsReal (Ideal.log1p (r : EReal)) :=
  ⟨_, log1p_coe hr⟩

/-- log (1 + e^a) is real for a real a. -/
theorem IsReal.log1p_exp {a : EReal} (ha : IsReal a) : IsReal (Ideal.log1p (Ideal.exp a)) := by
  obtain ⟨r, rfl⟩ := ha
  exact ⟨_, log1p_exp_coe r⟩

/-- The logistic function of a real is real. -/
theorem IsReal.logistic {a : EReal} (ha : IsReal a) : IsReal (Ideal.logistic a) := by
  obtain ⟨r, rfl⟩ := ha
  exact ⟨_, Ideal.logistic_coe r⟩

/-- The quotient of two reals, the divisor not zero, read in the extended reals. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The quotient of a real by a nonzero real is real. -/
theorem IsReal.div_coe {a : EReal} (ha : IsReal a) {n : ℝ} (hn : n ≠ 0) :
    IsReal (Ideal.div a (n : EReal)) := by
  obtain ⟨r, rfl⟩ := ha
  exact ⟨_, div_coe_coe r hn⟩

/-- A real power of a real is real. -/
theorem IsReal.pow {a b : EReal} (ha : IsReal a) (hb : IsReal b) : IsReal (Ideal.pow a b) := by
  obtain ⟨r, rfl⟩ := ha; obtain ⟨s, rfl⟩ := hb
  exact ⟨_, Ideal.pow_coe_coe r s⟩

/-- The power with exponent 2 of a real, read in the extended reals, is the square. -/
theorem pow_two_coe (r : ℝ) : Ideal.pow (r : EReal) ((2 : ℝ) : EReal) = ((r * r : ℝ) : EReal) := by
  rw [Ideal.pow_coe_coe, rpow_two_eq_mul]

/-- The softplus max a 0 + log (1 + e^(-|a|)) of a real, read in the extended reals. -/
theorem softplus_coe (r : ℝ) :
    max (r : EReal) 0 + Ideal.log1p (Ideal.exp (-(max (r : EReal) (-(r : EReal)))))
      = ((softplus r : ℝ) : EReal) := by
  rw [abs_coe, ← EReal.coe_neg, log1p_exp_coe, ← EReal.coe_zero, coe_max, ← EReal.coe_add]
  rfl

/-- The softplus of the opposite of a real is the softplus minus the real, in the extended reals. -/
theorem softplus_neg_coe (r : ℝ) :
    max (-(r : EReal)) 0 + Ideal.log1p (Ideal.exp (-(max (-(r : EReal)) (-(-(r : EReal))))))
      = (max (r : EReal) 0 + Ideal.log1p (Ideal.exp (-(max (r : EReal) (-(r : EReal)))))) - (r : EReal) := by
  rw [softplus_coe, ← EReal.coe_neg, softplus_coe, ← EReal.coe_sub]
  exact congrArg _ (softplus_neg r)

/-! ### The folding identity in the extended reals -/

/-- The folding identity over the reals with the squares written as products. -/
theorem fold_real_mul {ι : Type*} (s : Finset ι) (x p neg t : ι → ℝ) (d : ℝ) :
    5 * ((∑ i ∈ s, (neg i - x i) * t i + ∑ i ∈ s, neg i * (1 - t i)) / d)
      + 5 * ((∑ i ∈ s, ((1 - p i) * (1 - p i) * (neg i - x i)) * t i
              + ∑ i ∈ s, (p i * p i * neg i) * (1 - t i)) / d)
    = (∑ i ∈ s, (5 * (0 - x i)
          + 5 * ((1 - p i) * (1 - p i) * (neg i - x i) - p i * p i * neg i)) * t i) * (1 / d)
      + (5 * ∑ i ∈ s, neg i + 5 * ∑ i ∈ s, p i * p i * neg i) * (1 / d) := by
  simpa only [sq] using fold_real s x p neg t d

/-- The folding identity in the extended reals, for families all of whose entries are real. -/
theorem fold_ereal {ι : Type*} (s : Finset ι) (X P NEG T : ι → EReal)
    (hX : ∀ i, IsReal (X i)) (hP : ∀ i, IsReal (P i)) (hN : ∀ i, IsReal (NEG i))
    (hT : ∀ i, IsReal (T i)) {d : ℝ} (hd : d ≠ 0) :
    ((5 : ℝ) : EReal) * Ideal.div (∑ i ∈ s, (NEG i - X i) * T i + ∑ i ∈ s, NEG i * (1 - T i)) (d : EReal)
      + ((5 : ℝ) : EReal) * Ideal.div (∑ i ∈ s, (Ideal.pow (1 - P i) ((2 : ℝ) : EReal) * (NEG i - X i)) * T i
              + ∑ i ∈ s, (Ideal.pow (P i) ((2 : ℝ) : EReal) * NEG i) * (1 - T i)) (d : EReal)
    = (∑ i ∈ s, (((5 : ℝ) : EReal) * (0 - X i)
          + ((5 : ℝ) : EReal) * ((1 - P i) * (1 - P i) * (NEG i - X i) - P i * P i * NEG i)) * T i)
          * ((1 / d : ℝ) : EReal)
      + (((5 : ℝ) : EReal) * ∑ i ∈ s, NEG i + ((5 : ℝ) : EReal) * ∑ i ∈ s, P i * P i * NEG i)
          * ((1 / d : ℝ) : EReal) := by
  obtain ⟨x, rfl⟩ := exists_real_fun X hX
  obtain ⟨p, rfl⟩ := exists_real_fun P hP
  obtain ⟨neg, rfl⟩ := exists_real_fun NEG hN
  obtain ⟨t, rfl⟩ := exists_real_fun T hT
  simp only [← EReal.coe_one, ← EReal.coe_zero, ← EReal.coe_sub, pow_two_coe, ← EReal.coe_mul,
    ← EReal.coe_add, coe_sum, div_coe_coe _ hd]
  exact congrArg _ (fold_real_mul s x p neg t d)

/-! ### The constants -/

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = ((1 : ℝ) : EReal) := by
  simp [Ideal.ofBits, Ideal.ieee, -EReal.coe_mul]; norm_num

/-- The pattern of 2.0 denotes 2. -/
theorem ofBits_two : Ideal.ofBits .f32 0x40000000#32 = ((2 : ℝ) : EReal) := by
  simp [Ideal.ofBits, Ideal.ieee, -EReal.coe_mul]; norm_num

/-- The pattern of 5.0 denotes 5. -/
theorem ofBits_five : Ideal.ofBits .f32 0x40A00000#32 = ((5 : ℝ) : EReal) := by
  simp [Ideal.ofBits, Ideal.ieee, -EReal.coe_mul]; norm_num

/-- The pattern of 8192.0 denotes 8192. -/
theorem ofBits_8192 : Ideal.ofBits .f32 0x46000000#32 = ((8192 : ℝ) : EReal) := by
  simp [Ideal.ofBits, Ideal.ieee, -EReal.coe_mul]; norm_num

/-- The pattern of 2⁻¹³ denotes 1/8192. -/
theorem ofBits_inv_8192 : Ideal.ofBits .f32 0x39000000#32 = ((1 / 8192 : ℝ) : EReal) := by
  simp [Ideal.ofBits, Ideal.ieee, -EReal.coe_mul]; norm_num

/-! ### Tiled sums -/

/-- A sum over 4 tiles of 2048 consecutive positions is the sum over the 8192 positions, in any additive
    commutative monoid (nothing is assumed finite). -/
theorem sum_tiles {M : Type*} [AddCommMonoid M] (a b : ℕ) (f : ℕ → M) :
    ∑ j : Fin a, ∑ k : Fin b, f (b * j.val + k.val) = ∑ c : Fin (a * b), f c.val := by
  rw [← Fintype.sum_prod_type' (f := fun (j : Fin a) (k : Fin b) => f (b * j.val + k.val))]
  refine Fintype.sum_equiv finProdFinEquiv _ _ ?_
  rintro ⟨j, k⟩
  show f (b * j.val + k.val) = f (finProdFinEquiv (j, k)).val
  congr 1
  simp only [finProdFinEquiv_apply_val]
  rw [Nat.add_comm]

end MaskAlgebra

end
-- ==== Proof.Algebra.lean ====
/-
  The algebraic law between the two orders of multiplication of the graph network.

  For matrices all of whose entries are real numbers the matrix product is associative:
      ∑_k (∑_j a j * x j k) * w k  =  ∑_j a j * (∑_k x j k * w k).
  On the extended reals this fails in general (a product does not distribute over a sum when an infinity
  meets terms of opposite signs), so the law is stated for families whose entries are real, and proved by
  writing every entry as the image of a real number, pushing the coercion outwards and concluding in ℝ
  by distributivity, an exchange of the two sums and associativity of the product.

  Sums, products and maxima with 0 of reals are real, so the hidden layers have real entries, and the law
  applies three times: once per layer.
-/
import proofs.«155129_g86620900426038_cont_sun_m_497_8_alg».proof.Proof.Spec
import proofs.«155129_g86620900426038_cont_sun_m_497_8_alg».proof.Proof.LibMaskAlgebra

noncomputable section

open scoped BigOperators

namespace Cert.GraphNet

open MaskAlgebra

/-! ## Associativity of the matrix product for real entries -/

/-- One row a of the left factor, the middle factor x and one column w of the right factor, all with real
    entries: (a · x) · w = a · (x · w). -/
theorem row_assoc {ι κ : Type*} [Fintype ι] [Fintype κ] (a : ι → EReal) (x : ι → κ → EReal) (w : κ → EReal)
    (ha : ∀ j, IsReal (a j)) (hx : ∀ j k, IsReal (x j k)) (hw : ∀ k, IsReal (w k)) :
    ∑ k, (∑ j, a j * x j k) * w k = ∑ j, a j * (∑ k, x j k * w k) := by
  obtain ⟨a', rfl⟩ := exists_real_fun a ha
  obtain ⟨w', rfl⟩ := exists_real_fun w hw
  choose x' hx' using hx
  simp only [hx', ← EReal.coe_mul, coe_sum]
  refine congrArg _ ?_
  simp only [Finset.sum_mul, Finset.mul_sum]
  rw [Finset.sum_comm]
  refine Finset.sum_congr rfl fun j _ => Finset.sum_congr rfl fun k _ => ?_
  ring

/-! ## Closure: the intermediate matrices have real entries -/

/-- relu of a real is real. -/
theorem isReal_relu {a : EReal} (ha : IsReal a) : IsReal (relu a) := ha.max isReal_zero

variable {N Din Dh : ℕ}
variable (X : Fin N → Fin Din → EReal) (A : Fin N → Fin N → EReal) (W0 : Fin Din → Fin Dh → EReal) (b0 : Fin Dh → EReal)
  (W1 : Fin Dh → Fin Dh → EReal) (b1 : Fin Dh → EReal) (Wo : Fin Dh → EReal) (bo : EReal)

/-- The first hidden layer of the reference has real entries. -/
theorem isReal_rH1 (hX : ∀ n k, IsReal (X n k)) (hA : ∀ n j, IsReal (A n j)) (hW0 : ∀ k e, IsReal (W0 k e))
    (hb0 : ∀ e, IsReal (b0 e)) (n : Fin N) (e : Fin Dh) : IsReal (rH1 X A W0 b0 n e) := by
  unfold rH1
  exact isReal_relu ((isReal_sum _ _ fun k _ =>
    (isReal_sum _ _ fun j _ => (hA n j).mul (hX j k)).mul (hW0 k e)).add (hb0 e))

/-- The second hidden layer of the reference has real entries. -/
theorem isReal_rH2 (hX : ∀ n k, IsReal (X n k)) (hA : ∀ n j, IsReal (A n j)) (hW0 : ∀ k e, IsReal (W0 k e))
    (hb0 : ∀ e, IsReal (b0 e)) (hW1 : ∀ e d, IsReal (W1 e d)) (hb1 : ∀ e, IsReal (b1 e))
    (n : Fin N) (d : Fin Dh) : IsReal (rH2 X A W0 b0 W1 b1 n d) := by
  unfold rH2
  exact isReal_relu ((isReal_sum _ _ fun e _ =>
    (isReal_sum _ _ fun j _ => (hA n j).mul (isReal_rH1 X A W0 b0 hX hA hW0 hb0 j e)).mul (hW1 e d)).add (hb1 d))

/-! ## The three layers -/

/-- First layer: relu (A · (X · W0) + b0) is the reference's H1. -/
theorem rH1_eq (hX : ∀ n k, IsReal (X n k)) (hA : ∀ n j, IsReal (A n j)) (hW0 : ∀ k e, IsReal (W0 k e))
    (n : Fin N) (e : Fin Dh) :
    rH1 X A W0 b0 n e = relu ((∑ j : Fin N, A n j * kG0 X W0 j e) + b0 e) := by
  unfold rH1 kG0
  rw [row_assoc (A n) X (fun k => W0 k e) (hA n) hX (fun k => hW0 k e)]

/-- The kernel's G1 is H1 · W1. -/
theorem kG1_eq (hX : ∀ n k, IsReal (X n k)) (hA : ∀ n j, IsReal (A n j)) (hW0 : ∀ k e, IsReal (W0 k e))
    (n : Fin N) (d : Fin Dh) :
    kG1 X A W0 b0 W1 n d = ∑ e : Fin Dh, rH1 X A W0 b0 n e * W1 e d := by
  unfold kG1
  exact Finset.sum_congr rfl fun e _ => by rw [rH1_eq X A W0 b0 hX hA hW0 n e]

/-- Second layer: relu (A · (H1 · W1) + b1) is the reference's H2. -/
theorem rH2_eq (hX : ∀ n k, IsReal (X n k)) (hA : ∀ n j, IsReal (A n j)) (hW0 : ∀ k e, IsReal (W0 k e))
    (hb0 : ∀ e, IsReal (b0 e)) (hW1 : ∀ e d, IsReal (W1 e d)) (n : Fin N) (d : Fin Dh) :
    rH2 X A W0 b0 W1 b1 n d = relu ((∑ j : Fin N, A n j * kG1 X A W0 b0 W1 j d) + b1 d) := by
  unfold rH2
  rw [row_assoc (A n) (rH1 X A W0 b0) (fun e => W1 e d) (hA n) (isReal_rH1 X A W0 b0 hX hA hW0 hb0)
    (fun e => hW1 e d)]
  refine congrArg (fun s => relu (s + b1 d)) ?_
  exact Finset.sum_congr rfl fun j _ => by rw [kG1_eq X A W0 b0 W1 hX hA hW0 j d]

/-- The kernel's G2 is H2 · Wo. -/
theorem kG2_eq (hX : ∀ n k, IsReal (X n k)) (hA : ∀ n j, IsReal (A n j)) (hW0 : ∀ k e, IsReal (W0 k e))
    (hb0 : ∀ e, IsReal (b0 e)) (hW1 : ∀ e d, IsReal (W1 e d)) (n : Fin N) :
    kG2 X A W0 b0 W1 b1 Wo n = ∑ e : Fin Dh, rH2 X A W0 b0 W1 b1 n e * Wo e := by
  unfold kG2
  exact Finset.sum_congr rfl fun e _ => by rw [rH2_eq X A W0 b0 W1 b1 hX hA hW0 hb0 hW1 n e]

/-- The two programs agree on real inputs: softplus (A · (H2 · Wo) + bo) = softplus ((A · H2) · Wo + bo). -/
theorem kOut_eq_rOut {N Din Dh : ℕ} (X : Fin N → Fin Din → EReal) (A : Fin N → Fin N → EReal) (W0 : Fin Din → Fin Dh → EReal) (b0 : Fin Dh → EReal)
    (W1 : Fin Dh → Fin Dh → EReal) (b1 : Fin Dh → EReal) (Wo : Fin Dh → EReal) (bo : EReal)
    (hX : ∀ n k, IsReal (X n k)) (hA : ∀ n j, IsReal (A n j)) (hW0 : ∀ k e, IsReal (W0 k e)) (hb0 : ∀ e, IsReal (b0 e))
    (hW1 : ∀ e d, IsReal (W1 e d)) (hb1 : ∀ e, IsReal (b1 e)) (hWo : ∀ e, IsReal (Wo e)) (n : Fin N) :
    kOut X A W0 b0 W1 b1 Wo bo n = rOut X A W0 b0 W1 b1 Wo bo n := by
  unfold kOut rOut
  rw [row_assoc (A n) (rH2 X A W0 b0 W1 b1) Wo (hA n) (isReal_rH2 X A W0 b0 W1 b1 hX hA hW0 hb0 hW1 hb1) hWo]
  refine congrArg (fun s => softplus (s + bo)) ?_
  exact Finset.sum_congr rfl fun j _ => by rw [kG2_eq X A W0 b0 W1 b1 Wo hX hA hW0 hb0 hW1 j]

end Cert.GraphNet

end
-- ==== Proof.Finite.lean ====
/-
  From the precondition to "every input entry is a real number".

  The precondition computes, for each of the eight floating-point inputs a, the conjunction over all entries of
  |a| < +∞ (an entrywise comparison of max a (-a) with the word 0x7F800000, reduced by "and" from the constant 1),
  and takes the conjunction of the eight results. That the whole is 1 says each of the eight reductions is 1, hence
  each comparison is 1 at every entry, hence max a (-a) < +∞ there: the entry is neither +∞ nor -∞, so it is a real.
-/
import proofs.«155129_g86620900426038_cont_sun_m_497_8_alg».proof.Defs
import proofs.«155129_g86620900426038_cont_sun_m_497_8_alg».proof.Proof.LibMaskAlgebra
import Idealize.ShloMosaic.Lib.ReduceAll
import Idealize.ShloMosaic.Lib.ValueIdx

noncomputable section

open Idealize.ShloMosaic Idealize.ShloMosaic.TcCoe Idealize.SL.Sem Idealize.ShloMosaic.ValueIdx

namespace Cert.GraphNet

open MaskAlgebra

/-! ## One entry -/

/-- The word 0x7F800000 denotes +∞. -/
theorem ofBits_inf : Ideal.ofBits .f32 0x7F800000#32 = ⊤ := by simp [Ideal.ofBits, Ideal.ieee]

/-- An extended real whose absolute value max a (-a) lies strictly below +∞ is a real number. -/
theorem isReal_of_abs_lt_top {a : EReal} (h : max a (-a) < ⊤) : IsReal a := by
  rw [max_lt_iff] at h
  refine isReal_of_ne ?_ (ne_of_lt h.1)
  intro hb
  rw [hb] at h
  exact absurd h.2 (by simp)

/-- The rank-0 shape has one index. -/
instance : Subsingleton Cert.Pre_finite_inputs.S_.Idx := ⟨fun a b => funext fun d => d.elim0⟩

/-- One element of the comparison |a| < +∞ being 1 says that element of a is a real number. -/
theorem isReal_of_cmp {S : Shape} (a : FVec Ideal S .f32)
    (hb : Cert.Pre_finite_inputs.S_.BroadcastsInDim S (![] : Fin 0 → Fin S.rank)) (i : S.Idx)
    (h : cmpf (F := Ideal) .olt (Host.absf a)
          (broadcastInDim S ![] hb (constant Cert.Pre_finite_inputs.S_ .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top ?_
  by_contra hn
  simp [hn] at h'

/-! ## One array -/

/-- The conjunction over all entries of |a| < +∞ being 1 says every entry of a is a real number. -/
theorem isReal_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (init : IVec Cert.Pre_finite_inputs.S_ 1)
    (h : Host.reduce IntOp.andi (cmpf (F := Ideal) .olt (Host.absf a)
          (broadcastInDim S ![] hb (constant Cert.Pre_finite_inputs.S_ .f32 0x7F800000#32))) init hr hu ix0 = 1#1)
    (i : S.Idx) : IsReal (a i) :=
  isReal_of_cmp a hb i (Host.reduce_andi_all _ init hr hu ix0 h i)

/-- The entrywise "and" of two arrays of one-bit words, read at an index. -/
theorem andi_apply {s : Shape} {w : Nat} (x y : IVec s w) (i : s.Idx) :
    andi x y i = IntOp.andi (x i) (y i) := rfl

/-! ## The eight arrays -/

open Cert.Pre_finite_inputs in
/-- The precondition's function being 1 says every entry of every one of its eight arguments is a real number. -/
theorem real_of_fn [hP : Cert.Pre_finite_inputs.Facts]
    (a0 : FVec Ideal S10000x128 .f32) (a1 : FVec Ideal S10000x10000 .f32) (a2 : FVec Ideal S128x64 .f32)
    (a3 : FVec Ideal S64 .f32) (a4 : FVec Ideal S64x64 .f32) (a5 : FVec Ideal S64 .f32)
    (a6 : FVec Ideal S64x1 .f32) (a7 : FVec Ideal S1 .f32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
    ∧ (∀ i, IsReal (a4 i)) ∧ (∀ i, IsReal (a5 i)) ∧ (∀ i, IsReal (a6 i)) ∧ (∀ i, IsReal (a7 i)) := by
  have h0 := congrFun h ix0
  dsimp only [Cert.Pre_finite_inputs.fn, Cert.Pre_finite_inputs.fn_part1, Cert.Pre_finite_inputs.fn_part2] at h0
  simp only [andi_apply, IntOp.andi_eq_one] at h0
  obtain ⟨⟨⟨⟨⟨⟨⟨e0, e1⟩, e2⟩, e3⟩, e4⟩, e5⟩, e6⟩, e7⟩ := h0
  exact ⟨isReal_of_all a0 _ _ _ _ e0, isReal_of_all a1 _ _ _ _ e1, isReal_of_all a2 _ _ _ _ e2,
    isReal_of_all a3 _ _ _ _ e3, isReal_of_all a4 _ _ _ _ e4, isReal_of_all a5 _ _ _ _ e5,
    isReal_of_all a6 _ _ _ _ e6, isReal_of_all a7 _ _ _ _ e7⟩

open Cert.KernelIdeal in
/-- Under the certificate's precondition every entry of the kernel's eight argument arrays is a real number. -/
theorem real_of_pre [hK : Cert.KernelIdeal.Facts] [hP : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    (∀ i, IsReal ((m ((c.tc : Thread nD τ).loc main_arg0) : S10000x128.Idx → EReal) i)) ∧ (∀ i, IsReal ((m ((c.tc : Thread nD τ).loc main_arg1) : S10000x10000.Idx → EReal) i))
    ∧ (∀ i, IsReal ((m ((c.tc : Thread nD τ).loc main_arg2) : S128x64.Idx → EReal) i)) ∧ (∀ i, IsReal ((m ((c.tc : Thread nD τ).loc main_arg3) : S64.Idx → EReal) i))
    ∧ (∀ i, IsReal ((m ((c.tc : Thread nD τ).loc main_arg4) : S64x64.Idx → EReal) i)) ∧ (∀ i, IsReal ((m ((c.tc : Thread nD τ).loc main_arg5) : S64.Idx → EReal) i))
    ∧ (∀ i, IsReal ((m ((c.tc : Thread nD τ).loc main_arg6) : S64x1.Idx → EReal) i)) ∧ (∀ i, IsReal ((m ((c.tc : Thread nD τ).loc main_arg7) : S1.Idx → EReal) i)) :=
  real_of_fn _ _ _ _ _ _ _ _ (h c)

end Cert.GraphNet

end
-- ==== Proof.lean ====
/-
  The certificate of a two-layer graph network with a dense adjacency matrix and a softplus head.

  Both programs compute, from node features X (10000 × 128), an adjacency matrix A (10000 × 10000), weights W0, W1, Wo and
  biases b0, b1, bo,

      H1 = relu ((A · X) · W0 + b0),   H2 = relu ((A · H1) · W1 + b1),   out = softplus ((A · H2) · Wo + bo).

  The reference multiplies in this order. The kernel runs four launches that multiply each layer's weights in before the
  adjacency matrix — X · W0, then relu (A · (X · W0) + b0) · W1, then relu (A · (…) + b1) · Wo, then softplus (A · (…) + bo)
  — and keeps a narrower copy of A, which over the extended reals is A itself. The two orders agree by associativity of
  the matrix product, which holds because the precondition makes every input entry a real number (on the extended reals
  a product does not distribute over a sum at the infinities).

  The frames of the two kernel programs are the generated ones; the reference's frame is its generated run with the
  result dropped. The idealization rewrote no operation, so there is nothing to preserve. For the value claim the
  kernel's run ends with its result array at the last launch's output (module KernelRun), which entry by entry is the
  specification's `kOut` of the arguments (KernelValue, over the four launches' values Region0 … Region3 and the fold
  through the host reshapes, Fold); the reference's run ends at `rOut` of the same arguments (RefValue); the arguments
  have real entries (Finite) and `kOut = rOut` on real entries (Algebra).
-/
import proofs.«155129_g86620900426038_cont_sun_m_497_8_alg».proof.Defs
import proofs.«155129_g86620900426038_cont_sun_m_497_8_alg».proof.Proof.Gen.Kernel
import proofs.«155129_g86620900426038_cont_sun_m_497_8_alg».proof.Proof.Gen.Kernel.Frame
import proofs.«155129_g86620900426038_cont_sun_m_497_8_alg».proof.Proof.Gen.KernelIdeal
import proofs.«155129_g86620900426038_cont_sun_m_497_8_alg».proof.Proof.Gen.KernelIdeal.Frame
import proofs.«155129_g86620900426038_cont_sun_m_497_8_alg».proof.Proof.Gen.ReferenceIdeal
import proofs.«155129_g86620900426038_cont_sun_m_497_8_alg».proof.Proof.Gen.ReferenceIdeal.Run
import proofs.«155129_g86620900426038_cont_sun_m_497_8_alg».proof.Proof.Gen.ReferenceIdeal.Read
import proofs.«155129_g86620900426038_cont_sun_m_497_8_alg».proof.Proof.Gen.Pre_finite_inputs
import proofs.«155129_g86620900426038_cont_sun_m_497_8_alg».proof.Proof.KernelRun
import proofs.«155129_g86620900426038_cont_sun_m_497_8_alg».proof.Proof.KernelValue
import proofs.«155129_g86620900426038_cont_sun_m_497_8_alg».proof.Proof.RefValue
import proofs.«155129_g86620900426038_cont_sun_m_497_8_alg».proof.Proof.Algebra
import proofs.«155129_g86620900426038_cont_sun_m_497_8_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed nothing. -/
theorem preserves : Cert.preserves_Kernel_KernelIdeal := trivial

/-- From memories that agree on the arguments, whose entries the precondition makes real numbers, both programs end
    with the same result: the kernel's `kOut` and the reference's `rOut` of the same matrices. -/
theorem algebraic : Cert.algebraic_KernelIdeal_ReferenceIdeal := by
  intro m ρ m' ρ' hpre hagree
  refine ⟨fun c => Cert.KernelIdeal.Gen.W7 m ρ c (Proc.devRef .tc Cert.KernelIdeal.main_v7),
    Cert.KernelIdeal.ValueRun.run (F := Ideal) m ρ, ?_⟩
  refine (θ_run Cert.ReferenceIdeal.defs _ _).mono (fun r h c => ⟨(h c).1.trans ?_, (h c).2⟩)
    (Cert.ReferenceIdeal.Value.run (F := Ideal) m' ρ')
  refine funext fun (i : Cert.KernelIdeal.S10000x1.Idx) => ?_
  obtain ⟨n, u, rfl⟩ : ∃ (n : Fin 10000) (u : Fin 1), i = ix2 n u := ⟨i 0, i 1, eq_ix2 i⟩
  obtain rfl : u = 0 := Subsingleton.elim u 0
  rw [Cert.ReferenceIdeal.Read.val_main_v17_eq, Cert.ReferenceIdeal.RefValue.result_apply,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  refine Eq.trans ?_ (Cert.KernelIdeal.KernelValue.result_apply m ρ c n).symm
  obtain ⟨h0, h1, h2, h3, h4, h5, h6, h7⟩ := Cert.GraphNet.real_of_pre m hpre c
  exact (Cert.GraphNet.kOut_eq_rOut (Cert.KernelIdeal.KernelValue.X m c) (Cert.KernelIdeal.KernelValue.A m c)
    (Cert.KernelIdeal.KernelValue.W0 m c) (Cert.KernelIdeal.KernelValue.b0 m c) (Cert.KernelIdeal.KernelValue.W1 m c)
    (Cert.KernelIdeal.KernelValue.b1 m c) (Cert.KernelIdeal.KernelValue.Wo m c) (Cert.KernelIdeal.KernelValue.bo m c)
    (fun n k => h0 _) (fun n j => h1 _) (fun k e => h2 _) (fun e => h3 _) (fun e d => h4 _) (fun e => h5 _)
    (fun e => h6 _) n).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
